-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x40 : Shape := ⟨2, ![100000, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 78
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x128, .f32⟩
  | .hbm, ⟨77, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x40, .f32⟩
  | .local _ .vmem, ⟨23, _⟩ => ⟨S40, .f32⟩
  | .local _ .vmem, ⟨24, _⟩ => ⟨S10000x40, .f32⟩
  | .local _ .vmem, ⟨25, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S40.size a ≤ S40.size a
  hwx4_2 : ∀ i : grid4.Coords, EltTy.bits .f32 = 32 ∨ (Rect.block (s := S40) S40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x40.size a ≤ S100000x40.size a
  hwx4_3 : ∀ i : grid4.Coords, EltTy.bits .f32 = 32 ∨ (Rect.block (s := S100000x40) S10000x40.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S10000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S100000x128, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x128, .f32⟩
  | .hbm, ⟨93, _⟩ => ⟨S1700000x1, .f32⟩
  | .hbm, ⟨94, _⟩ => ⟨S1700000x128, .f32⟩
  | .hbm, ⟨95, _⟩ => ⟨S1700000x128, .f32⟩
  | .hbm, ⟨96, _⟩ => ⟨S_, .f32⟩
  | .hbm, ⟨97, _⟩ => ⟨S100000x128, .f32⟩
  | .hbm, ⟨98, _⟩ => ⟨S1700000x1, .i32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result named.

  @main is eight segments — a stretch of host operations, a kernel region, a stretch, two regions, a stretch, two
  regions — and the buffer contents at each boundary are a fold from the launch memory: a stretch applies its operations,
  a region replaces its arrays by what its write-backs leave.  Every weakly fair execution terminates, nothing faults,
  and the final memory holds, at every buffer the program does not scope, the last term `W8` of that fold.  Read at
  the result buffer and at the eight arguments (which no operation and no region writes), this is the run below.
-/
import proofs.«164958_j45200235823717_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last term of
    the boundary fold and the arguments as launched. -/
theorem run : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Result

end
-- ==== Proof.Spec.lean ====
/-
  A two-layer graph convolution with a log-softmax head, on the extended reals, entry by entry.

  Node features form an [n, 128] array.  One layer sends features x to
      max ( A (x · W) + b , 0 ),
  where x · W is the matrix product, A is the aggregation over the graph's edges (a map of [n, 128] arrays that the
  layers share and that is never opened here), b is added to every row and the maximum is taken entry by entry.
  The head sends features h to the row-wise log-softmax of z = h · W + b:
      z(p, q) − M(p) − log ∑ⱼ exp (z(p, j) − M(p)),        M(p) = maxⱼ z(p, j).

  Every map but A is computed row by row: entry (p, q) of the result reads row p of the features and the whole
  weights.  So the map of a tile of rows is the tile of the map, which is what lets a computation tiled over rows be
  compared with the same computation on the whole array.  Nothing here moves a factor across a sum or cancels, so no
  entry needs to be finite.
-/
import Idealize.ShloMosaic.Lib.ValueIdx
import Idealize.ShloMosaic.PureOps.Ideal

noncomputable section

open scoped BigOperators

namespace Cert.GraphConv

open Idealize.ShloMosaic Idealize.ShloMosaic.ValueIdx

/-- Arrays of extended reals of shape [n, k]. -/
abbrev Mat (n k : ℕ) := (⟨2, ![n, k]⟩ : Shape).Idx → EReal
/-- Arrays of extended reals of shape [n]. -/
abbrev Vct (n : ℕ) := (⟨1, ![n]⟩ : Shape).Idx → EReal

variable {n N k b : ℕ}

/-- The row of an index of an [n, k] array. -/
def rowOf (i : (⟨2, ![n, k]⟩ : Shape).Idx) : Fin n := ⟨(i 0).val, idx2_lt0 i⟩
/-- The column of an index of an [n, k] array. -/
def colOf (i : (⟨2, ![n, k]⟩ : Shape).Idx) : Fin k := ⟨(i 1).val, idx2_lt1 i⟩

theorem rowOf_ix2 (p : Fin n) (q : Fin k) : rowOf (ix2 p q) = p := rfl
theorem colOf_ix2 (p : Fin n) (q : Fin k) : colOf (ix2 p q) = q := rfl

/-! ## The three dense maps -/

/-- The matrix product [n, k] × [k, b]. -/
def mm (x : Mat n k) (w : Mat k b) : Mat n b :=
  fun i => ∑ j : Fin k, x (ix2 (rowOf i) j) * w (ix2 j (colOf i))

theorem mm_apply (x : Mat n k) (w : Mat k b) (p : Fin n) (q : Fin b) :
    mm x w (ix2 p q) = ∑ j : Fin k, x (ix2 p j) * w (ix2 j q) := rfl

/-- A bias added to every row, then the maximum with zero entry by entry. -/
def biasRelu (a : Mat n b) (β : Vct b) : Mat n b :=
  fun i => max (a i + β (ix1 (colOf i))) 0

theorem biasRelu_apply (a : Mat n b) (β : Vct b) (p : Fin n) (q : Fin b) :
    biasRelu a β (ix2 p q) = max (a (ix2 p q) + β (ix1 q)) 0 := rfl

/-- The matrix product with a bias added to every row. -/
def affine (h : Mat n k) (w : Mat k b) (β : Vct b) : Mat n b :=
  fun i => mm h w i + β (ix1 (colOf i))

theorem affine_apply (h : Mat n k) (w : Mat k b) (β : Vct b) (p : Fin n) (q : Fin b) :
    affine h w β (ix2 p q) = (∑ j : Fin k, h (ix2 p j) * w (ix2 j q)) + β (ix1 q) := rfl

/-- The largest entry of row p, as a fold of the maximum from the bottom element. -/
def rowMax (z : Mat n b) (p : Fin n) : EReal :=
  (Finset.univ : Finset (Fin b)).fold max ⊥ fun j => z (ix2 p j)

/-- The logarithm of the sum over row p of the exponentials of the entries less the row's largest. -/
def rowLogSumExp (z : Mat n b) (p : Fin n) : EReal :=
  Ideal.log (∑ j : Fin b, Ideal.exp (z (ix2 p j) - rowMax z p))

/-- The row-wise log-softmax. -/
def logSoftmax (z : Mat n b) : Mat n b :=
  fun i => (z i - rowMax z (rowOf i)) - rowLogSumExp z (rowOf i)

theorem logSoftmax_apply (z : Mat n b) (p : Fin n) (q : Fin b) :
    logSoftmax z (ix2 p q) = (z (ix2 p q) - rowMax z p) - rowLogSumExp z p := rfl

/-- The head: log-softmax of the affine map. -/
def head (h : Mat n k) (w : Mat k b) (β : Vct b) : Mat n b := logSoftmax (affine h w β)

/-! ## The network over an aggregation -/

/-- Two layers and the head, over an aggregation `A` of [n, 128] arrays. -/
def net (A : Mat n 128 → Mat n 128) (x : Mat n 128) (W1 : Mat 128 128) (b1 : Vct 128) (W2 : Mat 128 128) (b2 : Vct 128)
    (Wfc : Mat 128 40) (bfc : Vct 40) : Mat n 40 :=
  head (biasRelu (A (mm (biasRelu (A (mm x W1)) b1) W2)) b2) Wfc bfc

/-! ## Each dense map is computed row by row -/

/-- The product of a tile of rows is the tile of the product. -/
theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

/-- Bias and maximum of a tile of rows is the tile of bias and maximum. -/
theorem biasRelu_rows (e : Fin n → Fin N) (a : Mat n b) (A : Mat N b) (β : Vct b)
    (ha : ∀ r q, a (ix2 r q) = A (ix2 (e r) q)) (r : Fin n) (q : Fin b) :
    biasRelu a β (ix2 r q) = biasRelu A β (ix2 (e r) q) := by
  rw [biasRelu_apply, biasRelu_apply, ha r q]

/-- The affine map of a tile of rows is the tile of the affine map. -/
theorem affine_rows (e : Fin n → Fin N) (h : Mat n k) (H : Mat N k) (w : Mat k b) (β : Vct b)
    (hh : ∀ r j, h (ix2 r j) = H (ix2 (e r) j)) (r : Fin n) (q : Fin b) :
    affine h w β (ix2 r q) = affine H w β (ix2 (e r) q) := by
  rw [affine_apply, affine_apply]
  exact congrArg (· + _) (Finset.sum_congr rfl fun j _ => by rw [hh r j])

/-- The log-softmax of a tile of rows is the tile of the log-softmax. -/
theorem logSoftmax_rows (e : Fin n → Fin N) (z : Mat n b) (Z : Mat N b)
    (hz : ∀ r q, z (ix2 r q) = Z (ix2 (e r) q)) (r : Fin n) (q : Fin b) :
    logSoftmax z (ix2 r q) = logSoftmax Z (ix2 (e r) q) := by
  have hM : rowMax z r = rowMax Z (e r) := by
    unfold rowMax
    exact congrArg (fun f => (Finset.univ : Finset (Fin b)).fold max ⊥ f) (funext fun j => hz r j)
  have hL : rowLogSumExp z r = rowLogSumExp Z (e r) := by
    unfold rowLogSumExp
    rw [hM]
    exact congrArg Ideal.log (Finset.sum_congr rfl fun j _ => by rw [hz r j])
  rw [logSoftmax_apply, logSoftmax_apply, hz r q, hM, hL]

/-- The head of a tile of rows is the tile of the head. -/
theorem head_rows (e : Fin n → Fin N) (h : Mat n k) (H : Mat N k) (w : Mat k b) (β : Vct b)
    (hh : ∀ r j, h (ix2 r j) = H (ix2 (e r) j)) (r : Fin n) (q : Fin b) :
    head h w β (ix2 r q) = head H w β (ix2 (e r) q) :=
  logSoftmax_rows e (affine h w β) (affine H w β) (fun r q => affine_rows e h H w β hh r q) r q

end Cert.GraphConv

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.Tiles.lean ====
/-
  What one grid step computes, on the extended reals.

  Each of the five kernels loads a tile of 10000 rows (and the whole weights and bias), computes, and stores a tile of
  10000 rows.  Read entry by entry at exact arithmetic — a change of float format is the identity, a matrix unit
  started from the zero accumulator is the plain sum over the contracted axis, the lane maximum from −∞ is the fold of
  the maximum from the bottom element, the lane sum from 0 is the plain sum — the stored tile is

    • for the two product kernels, the matrix product of the tile with the weights;
    • for the two bias kernels, the bias added to every row and then the maximum with zero;
    • for the last kernel, the row-wise log-softmax of the product plus bias.

  These are the maps of the specification at n = 10000.
-/
import proofs.«164958_j45200235823717_1_alg».proof.Proof.Gen.KernelIdeal.Skeleton
import proofs.«164958_j45200235823717_1_alg».proof.Proof.Spec
import proofs.«164958_j45200235823717_1_alg».proof.Proof.LibLayerLaws
import proofs.«164958_j45200235823717_1_alg».proof.Proof.LibRowLayout
import proofs.«164958_j45200235823717_1_alg».proof.Proof.LibRowOps
import Idealize.ShloMosaic.Lib.ValueLayout
import Idealize.ShloMosaic.Lib.Pipeline.Value
import Idealize.ShloMosaic.PureOps.Ideal.Laws

noncomputable section

open scoped BigOperators

namespace Cert.KernelIdeal.Tiles

open Cert.KernelIdeal Cert.KernelIdeal.Gen Cert.GraphConv
open Idealize.ShloMosaic Idealize.ShloMosaic.ValueIdx

/-! ## The two matrix units -/

/-- The [10000, 128] × [128, 128] matrix unit from the zero accumulator, at (p, q): the sum over the inner axis. -/
theorem unit128 {φ₁ φ₂ : FTy} (x : FVec Ideal S10000x128 φ₁) (w : FVec Ideal S128x128 φ₂) (p : Fin 10000) (q : Fin 128) :
    matmul dot_S10000x128_S128x128_S10000x128_1_0_0_1_n_n none x w (constant (F := Ideal) S10000x128 .f32 0x00000000#32) (ix2 p q)
      = ∑ j : Fin 128, x (ix2 p j) * w (ix2 j q) :=
  (Ideal.matmul_constant_zero_apply dot_S10000x128_S128x128_S10000x128_1_0_0_1_n_n none x w (ix2 p q)).trans
    (Cert.LayerLaws.sum_inner dot_S10000x128_S128x128_S10000x128_1_0_0_1_n_n rfl rfl
      (fun _ _ => rfl) (fun _ _ => rfl) (fun _ _ => rfl) (fun _ _ => rfl) x w p q)

/-- The [10000, 128] × [128, 40] matrix unit from the zero accumulator, at (p, q): the sum over the inner axis. -/
theorem unit40 {φ₁ φ₂ : FTy} (x : FVec Ideal S10000x128 φ₁) (w : FVec Ideal S128x40 φ₂) (p : Fin 10000) (q : Fin 40) :
    matmul dot_S10000x128_S128x40_S10000x40_1_0_0_1_n_n none x w (constant (F := Ideal) S10000x40 .f32 0x00000000#32) (ix2 p q)
      = ∑ j : Fin 128, x (ix2 p j) * w (ix2 j q) :=
  (Ideal.matmul_constant_zero_apply dot_S10000x128_S128x40_S10000x40_1_0_0_1_n_n none x w (ix2 p q)).trans
    (Cert.LayerLaws.sum_inner dot_S10000x128_S128x40_S10000x40_1_0_0_1_n_n rfl rfl
      (fun _ _ => rfl) (fun _ _ => rfl) (fun _ _ => rfl) (fun _ _ => rfl) x w p q)

/-! ## The product kernels -/

/-- The first product kernel stores the product of its tile with the weights. -/
theorem product0 (x0 : Vec Ideal S10000x128 .f32) (x1 : Vec Ideal S128x128 .f32) :
    k0_pay1 (F := Ideal) x0 x1 = mm x0 x1 := by
  funext j
  obtain ⟨p, q, rfl⟩ : ∃ (p : Fin 10000) (q : Fin 128), j = ix2 p q := ⟨j 0, j 1, eq_ix2 j⟩
  rw [mm_apply]
  exact unit128 (truncf .bf16 x0 bitsLt_bf16_f32) (truncf .bf16 x1 bitsLt_bf16_f32) p q

/-- The second product kernel stores the product of its tile with the weights (its tile passes through a cast to
    its own shape first, which changes nothing). -/
theorem product2 (x0 : Vec Ideal S10000x128 .f32) (x1 : Vec Ideal S128x128 .f32) :
    k2_pay1 (F := Ideal) x0 x1 = mm x0 x1 := by
  funext j
  obtain ⟨p, q, rfl⟩ : ∃ (p : Fin 10000) (q : Fin 128), j = ix2 p q := ⟨j 0, j 1, eq_ix2 j⟩
  rw [mm_apply]
  unfold k2_pay1
  rw [shapeCast_self]
  exact unit128 (truncf .bf16 x0 bitsLt_bf16_f32) (truncf .bf16 x1 bitsLt_bf16_f32) p q

/-! ## The bias kernels -/

/-- A bias [128] cast to a row and broadcast down 10000 rows reads, at (p, q), the bias at q. -/
theorem biasRow128 (β : FVec Ideal S128 .f32) (p : Fin 10000) (q : Fin 128) :
    broadcastTo S10000x128 (shapeCast S1x128 β shapeCasts_S128_S1x128) broadcasts_S1x128_S10000x128 (ix2 p q) = β (ix1 q) :=
  (broadcastTo_1b_ab_apply _ broadcasts_S1x128_S10000x128 p q).trans (shapeCast_a_1a_apply β shapeCasts_S128_S1x128 0 q)

/-- A bias [40] cast to a row and broadcast down 10000 rows reads, at (p, q), the bias at q. -/
theorem biasRow40 (β : FVec Ideal S40 .f32) (p : Fin 10000) (q : Fin 40) :
    broadcastTo S10000x40 (shapeCast S1x40 β shapeCasts_S40_S1x40) broadcasts_S1x40_S10000x40 (ix2 p q) = β (ix1 q) :=
  (broadcastTo_1b_ab_apply _ broadcasts_S1x40_S10000x40 p q).trans (shapeCast_a_1a_apply β shapeCasts_S40_S1x40 0 q)

/-- What a bias kernel's arithmetic gives at (p, q). -/
theorem biasMax_apply (x0 : FVec Ideal S10000x128 .f32) (β : FVec Ideal S128 .f32) (p : Fin 10000) (q : Fin 128) :
    maximumf (addf (shapeCast S10000x128 x0 shapeCasts_S10000x128_S10000x128)
        (broadcastTo S10000x128 (shapeCast S1x128 β shapeCasts_S128_S1x128) broadcasts_S1x128_S10000x128))
      (broadcast S10000x128 (Scalar.ofBits (F := Ideal) .f32 0x00000000#32)) (ix2 p q)
      = max (x0 (ix2 p q) + β (ix1 q)) 0 := by
  show max (shapeCast S10000x128 x0 shapeCasts_S10000x128_S10000x128 (ix2 p q)
      + broadcastTo S10000x128 (shapeCast S1x128 β shapeCasts_S128_S1x128) broadcasts_S1x128_S10000x128 (ix2 p q))
    (Ideal.ofBits .f32 0x00000000#32) = _
  rw [shapeCast_self, biasRow128, Ideal.ofBits_zero_f32]

/-- The first bias kernel stores bias-then-maximum of its tile. -/
theorem bias1 (x0 : Vec Ideal S10000x128 .f32) (x1 : Vec Ideal S128 .f32) :
    k1_pay1 (F := Ideal) x0 x1 = biasRelu x0 x1 := by
  funext j
  obtain ⟨p, q, rfl⟩ : ∃ (p : Fin 10000) (q : Fin 128), j = ix2 p q := ⟨j 0, j 1, eq_ix2 j⟩
  rw [biasRelu_apply]
  exact biasMax_apply x0 x1 p q

/-- The second bias kernel stores bias-then-maximum of its tile. -/
theorem bias3 (x0 : Vec Ideal S10000x128 .f32) (x1 : Vec Ideal S128 .f32) :
    k3_pay1 (F := Ideal) x0 x1 = biasRelu x0 x1 := by
  funext j
  obtain ⟨p, q, rfl⟩ : ∃ (p : Fin 10000) (q : Fin 128), j = ix2 p q := ⟨j 0, j 1, eq_ix2 j⟩
  rw [biasRelu_apply]
  exact biasMax_apply x0 x1 p q

/-! ## The last kernel -/

/-- The logits of a tile: product with the [128, 40] weights plus the bias on every row. -/
def logits (x0 : FVec Ideal S10000x128 .f32) (x1 : FVec Ideal S128x40 .f32) (x2 : FVec Ideal S40 .f32) : FVec Ideal S10000x40 .f32 :=
  addf (matmul dot_S10000x128_S128x40_S10000x40_1_0_0_1_n_n none
      (truncf .bf16 (shapeCast S10000x128 x0 shapeCasts_S10000x128_S10000x128) bitsLt_bf16_f32) (truncf .bf16 x1 bitsLt_bf16_f32)
      (constant (F := Ideal) S10000x40 .f32 0x00000000#32))
    (broadcastTo S10000x40 (shapeCast S1x40 x2 shapeCasts_S40_S1x40) broadcasts_S1x40_S10000x40)

theorem logits_eq (x0 : FVec Ideal S10000x128 .f32) (x1 : FVec Ideal S128x40 .f32) (x2 : FVec Ideal S40 .f32) :
    logits x0 x1 x2 = affine x0 x1 x2 := by
  funext j
  obtain ⟨p, q, rfl⟩ : ∃ (p : Fin 10000) (q : Fin 40), j = ix2 p q := ⟨j 0, j 1, eq_ix2 j⟩
  rw [affine_apply]
  unfold logits
  show matmul dot_S10000x128_S128x40_S10000x40_1_0_0_1_n_n none
      (truncf .bf16 (shapeCast S10000x128 x0 shapeCasts_S10000x128_S10000x128) bitsLt_bf16_f32) (truncf .bf16 x1 bitsLt_bf16_f32)
      (constant (F := Ideal) S10000x40 .f32 0x00000000#32) (ix2 p q)
    + broadcastTo S10000x40 (shapeCast S1x40 x2 shapeCasts_S40_S1x40) broadcasts_S1x40_S10000x40 (ix2 p q) = _
  rw [biasRow40, shapeCast_self]
  exact congrArg (· + _) (unit40 (truncf .bf16 x0 bitsLt_bf16_f32) (truncf .bf16 x1 bitsLt_bf16_f32) p q)

/-- The row maximum as the kernel writes it: lane maximum from −∞, cast to a column, broadcast across the row. -/
def rowMaxBody (z : FVec Ideal S10000x40 .f32) : FVec Ideal S10000x40 .f32 :=
  broadcastTo S10000x40 (shapeCast S10000x1
    (multiReduction .maximumf [1] S10000 z 0xFF800000#32 reduces_S10000x40_S10000 (.inl rfl) rfl) shapeCasts_S10000_S10000x1)
    broadcasts_S10000x1_S10000x40

theorem rowMaxBody_apply (z : FVec Ideal S10000x40 .f32) (p : Fin 10000) (q : Fin 40) :
    rowMaxBody z (ix2 p q) = rowMax z p := by
  unfold rowMaxBody rowMax
  rw [Cert.RowLayout.broadcastTo_a1_ab_apply, Cert.RowLayout.shapeCast_a_a1_apply]
  refine (Cert.RowLayout.multiReduction_maximumf_row z 0xFF800000#32 reduces_S10000x40_S10000 (.inl rfl) rfl p).trans ?_
  rw [Idealize.ShloMosaic.RowOps.ofBits_neg_inf]

/-- The logarithm of the row's sum of exponentials as the kernel writes it: lane sum from 0, cast to a column,
    logarithm, broadcast across the row. -/
def rowLogBody (y : FVec Ideal S10000x40 .f32) : FVec Ideal S10000x40 .f32 :=
  broadcastTo S10000x40 (log (shapeCast S10000x1
    (multiReduction .add [1] S10000 (exp y) 0x00000000#32 reduces_S10000x40_S10000 (.inl rfl) rfl) shapeCasts_S10000_S10000x1))
    broadcasts_S10000x1_S10000x40

theorem rowLogBody_apply (y : FVec Ideal S10000x40 .f32) (p : Fin 10000) (q : Fin 40) :
    rowLogBody y (ix2 p q) = Ideal.log (∑ j : Fin 40, Ideal.exp (y (ix2 p j))) := by
  unfold rowLogBody
  rw [Cert.RowLayout.broadcastTo_a1_ab_apply]
  show Ideal.log (shapeCast S10000x1
    (multiReduction .add [1] S10000 (exp y) 0x00000000#32 reduces_S10000x40_S10000 (.inl rfl) rfl) shapeCasts_S10000_S10000x1 (ix2 p (0 : Fin 1))) = _
  rw [Cert.RowLayout.shapeCast_a_a1_apply]
  exact congrArg Ideal.log
    (Cert.RowLayout.multiReduction_add_row (exp y) 0x00000000#32 reduces_S10000x40_S10000 (.inl rfl) rfl p)

/-- The last kernel stores the head of its tile. -/
theorem head4 (x0 : Vec Ideal S10000x128 .f32) (x1 : Vec Ideal S128x40 .f32) (x2 : Vec Ideal S40 .f32) :
    k4_pay1 (F := Ideal) x0 x1 x2 = head x0 x1 x2 := by
  have hk : k4_pay1 (F := Ideal) x0 x1 x2
      = subf (subf (logits x0 x1 x2) (rowMaxBody (logits x0 x1 x2)))
          (rowLogBody (subf (logits x0 x1 x2) (rowMaxBody (logits x0 x1 x2)))) := rfl
  rw [hk, logits_eq]
  funext j
  obtain ⟨p, q, rfl⟩ : ∃ (p : Fin 10000) (q : Fin 40), j = ix2 p q := ⟨j 0, j 1, eq_ix2 j⟩
  show (affine x0 x1 x2 (ix2 p q) - rowMaxBody (affine x0 x1 x2) (ix2 p q))
      - rowLogBody (subf (affine x0 x1 x2) (rowMaxBody (affine x0 x1 x2))) (ix2 p q) = _
  rw [rowLogBody_apply, rowMaxBody_apply]
  unfold head
  rw [logSoftmax_apply]
  unfold rowLogSumExp
  refine congrArg (fun s => (affine x0 x1 x2 (ix2 p q) - rowMax (affine x0 x1 x2) p) - Ideal.log s) ?_
  refine Finset.sum_congr rfl fun j _ => ?_
  show Ideal.exp (affine x0 x1 x2 (ix2 p j) - rowMaxBody (affine x0 x1 x2) (ix2 p j)) = _
  rw [rowMaxBody_apply]

end Cert.KernelIdeal.Tiles

end
-- ==== Proof.Arrays.lean ====
/-
  From tiles to arrays.

  Each of the five kernels runs over a grid of ten points; point t stages rows 10000·t … 10000·t + 9999 of its input
  array together with the whole weights and bias, and writes back the same rows of its output array.  Since the map a
  kernel computes on a tile is computed row by row, what point t writes back is its row tile of the map of the WHOLE
  input array; the ten tiles cover the array; so after the region the output array is the map of the input arrays —
  whatever the buffers held when the region was entered.
-/
import proofs.«164958_j45200235823717_1_alg».proof.Proof.Gen.KernelIdeal.Frame
import proofs.«164958_j45200235823717_1_alg».proof.Proof.Tiles
import Idealize.ShloMosaic.Lib.Pipeline.Value

set_option maxRecDepth 16384

noncomputable section

namespace Cert.KernelIdeal.Arrays

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: the array `main_v27` after it -/

/-- The printed index maps of region 0, decided over its ten grid points: the row tile of the input moves with the
    output's, every other block is the whole of its array, and the output's row-tile index is at most 9. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row tile of the output is some grid point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- The row of the whole array that row `r` of grid point `t`'s tile is. -/
def row0 (t : Fin cfg0.N) (r : Fin 10000) : Fin 100000 :=
  ⟨win0_2.index t (0 : Fin 2) * 10000 + r.val, by have := (idx0 t).2.2.2.2.1; have := r.isLt; omega⟩

/-- What grid point `t` writes back is its row tile of the map of the whole arrays: the body's tile is the map of
    the input tile, the input tile holds the same rows of the input array, and the map is computed row by row. -/
theorem flushed0 (c : Dev nD) (t : Fin cfg0.N) :
    (dat0 V c).flushed 2 t = ((cfg0.win 2).blk t).view.read (Elt Ideal) (mm (n := 100000) (k := 128) (b := 128) (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x128) hz2]
  rw [Tiles.product0]
  obtain ⟨e0, e1, e2, e3, e4, e5⟩ := idx0 t
  have hw1 : (iblk0 V c 1 t : S128x128.Idx → EReal) = V c main_arg2 := by
    funext y
    show V c main_arg2 (((cfg0.win 1).blk t).view.emb y) = V c main_arg2 y
    refine congrArg (V c main_arg2) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [hw1]
  funext j
  obtain ⟨r, q, rfl⟩ : ∃ (r : Fin 10000) (q : Fin 128), j = ix2 r q := ⟨j 0, j 1, eq_ix2 j⟩
  show mm (n := 10000) (k := 128) (b := 128) (iblk0 V c 0 t) (V c main_arg2) (ix2 r q) = mm (n := 100000) (k := 128) (b := 128) (V c main_arg0) (V c main_arg2) (((cfg0.win 2).blk t).view.emb (ix2 r q))
  have hemb : ((cfg0.win 2).blk t).view.emb (ix2 r q) = ix2 (row0 t r) q := by
    funext a; apply Fin.ext
    match a with
    | ⟨0, _⟩ => show win0_2.index t (0 : Fin 2) * 10000 + 1 * r.val = win0_2.index t (0 : Fin 2) * 10000 + r.val; omega
    | ⟨1, _⟩ => show win0_2.index t (1 : Fin 2) * 128 + 1 * q.val = q.val; omega
  rw [hemb]
  refine mm_rows (row0 t) (iblk0 V c 0 t) (V c main_arg0) (V c main_arg2) (fun r' k => ?_) r q
  show V c main_arg0 (((cfg0.win 0).blk t).view.emb (ix2 r' k)) = V c main_arg0 (ix2 (row0 t r') k)
  refine congrArg (V c main_arg0) ?_
  funext a; apply Fin.ext
  match a with
  | ⟨0, _⟩ => show win0_0.index t (0 : Fin 2) * 10000 + 1 * r'.val = win0_2.index t (0 : Fin 2) * 10000 + r'.val; omega
  | ⟨1, _⟩ => show win0_0.index t (1 : Fin 2) * 128 + 1 * k.val = k.val; omega

/-- An index of the array is in grid point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Every index of the array is in the block of the grid point of its row tile. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After region 0 the array `main_v27` holds the map of the arrays the region found. -/
theorem final0 (c : Dev nD) : (dat0 V c).arrAt 2 cfg0.N = mm (n := 100000) (k := 128) (b := 128) (V c main_arg0) (V c main_arg2) :=
  (dat0 V c).arrAt_eq_of_cover 2 (mm (n := 100000) (k := 128) (b := 128) (V c main_arg0) (V c main_arg2)) (fun t _ => flushed0 V c t) cover0

/-! ## Region 1: the array `main_v41` after it -/

/-- The printed index maps of region 1, decided over its ten grid points: the row tile of the input moves with the
    output's, every other block is the whole of its array, and the output's row-tile index is at most 9. -/
theorem idx1 : ∀ t : Fin cfg1.N, win1_0.index t (0 : Fin 2) = win1_2.index t (0 : Fin 2)
    ∧ win1_0.index t (1 : Fin 2) = 0
    ∧ win1_1.index t (0 : Fin 1) = 0
    ∧ win1_2.index t (0 : Fin 2) ≤ 9
    ∧ win1_2.index t (1 : Fin 2) = 0 :=
  (by decide +kernel : ∀ t : Fin grid1.N, _)

/-- Every row tile of the output is some grid point's. -/
theorem onto1 : ∀ q0 : Fin 10, ∃ t : Fin cfg1.N, win1_2.index t = ![q0.val, 0] :=
  (by decide +kernel : ∀ q0 : Fin 10, ∃ t : Fin grid1.N, win1_2.index t = ![q0.val, 0])

/-- The row of the whole array that row `r` of grid point `t`'s tile is. -/
def row1 (t : Fin cfg1.N) (r : Fin 10000) : Fin 100000 :=
  ⟨win1_2.index t (0 : Fin 2) * 10000 + r.val, by have := (idx1 t).2.2.2.1; have := r.isLt; omega⟩

/-- What grid point `t` writes back is its row tile of the map of the whole arrays: the body's tile is the map of
    the input tile, the input tile holds the same rows of the input array, and the map is computed row by row. -/
theorem flushed1 (c : Dev nD) (t : Fin cfg1.N) :
    (dat1 V c).flushed 2 t = ((cfg1.win 2).blk t).view.read (Elt Ideal) (biasRelu (n := 100000) (b := 128) (V c main_v40) (V c main_arg3)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128) hz1]
  rw [Tiles.bias1]
  obtain ⟨e0, e1, e2, e3, e4⟩ := idx1 t
  have hw1 : (iblk1 V c 1 t : S128.Idx → EReal) = V c main_arg3 := by
    funext y
    show V c main_arg3 (((cfg1.win 1).blk t).view.emb y) = V c main_arg3 y
    refine congrArg (V c main_arg3) ?_
    funext a; apply Fin.ext
    match a with
    | ⟨0, _⟩ => show win1_1.index t (0 : Fin 1) * 128 + 1 * (y 0).val = (y 0).val; omega
  rw [hw1]
  funext j
  obtain ⟨r, q, rfl⟩ : ∃ (r : Fin 10000) (q : Fin 128), j = ix2 r q := ⟨j 0, j 1, eq_ix2 j⟩
  show biasRelu (n := 10000) (b := 128) (iblk1 V c 0 t) (V c main_arg3) (ix2 r q) = biasRelu (n := 100000) (b := 128) (V c main_v40) (V c main_arg3) (((cfg1.win 2).blk t).view.emb (ix2 r q))
  have hemb : ((cfg1.win 2).blk t).view.emb (ix2 r q) = ix2 (row1 t r) q := by
    funext a; apply Fin.ext
    match a with
    | ⟨0, _⟩ => show win1_2.index t (0 : Fin 2) * 10000 + 1 * r.val = win1_2.index t (0 : Fin 2) * 10000 + r.val; omega
    | ⟨1, _⟩ => show win1_2.index t (1 : Fin 2) * 128 + 1 * q.val = q.val; omega
  rw [hemb]
  refine biasRelu_rows (row1 t) (iblk1 V c 0 t) (V c main_v40) (V c main_arg3) (fun r' k => ?_) r q
  show V c main_v40 (((cfg1.win 0).blk t).view.emb (ix2 r' k)) = V c main_v40 (ix2 (row1 t r') k)
  refine congrArg (V c main_v40) ?_
  funext a; apply Fin.ext
  match a with
  | ⟨0, _⟩ => show win1_0.index t (0 : Fin 2) * 10000 + 1 * r'.val = win1_2.index t (0 : Fin 2) * 10000 + r'.val; omega
  | ⟨1, _⟩ => show win1_0.index t (1 : Fin 2) * 128 + 1 * k.val = k.val; omega

/-- An index of the array is in grid point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- Every index of the array is in the block of the grid point of its row tile. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After region 1 the array `main_v41` holds the map of the arrays the region found. -/
theorem final1 (c : Dev nD) : (dat1 V c).arrAt 2 cfg1.N = biasRelu (n := 100000) (b := 128) (V c main_v40) (V c main_arg3) :=
  (dat1 V c).arrAt_eq_of_cover 2 (biasRelu (n := 100000) (b := 128) (V c main_v40) (V c main_arg3)) (fun t _ => flushed1 V c t) cover1

/-! ## Region 2: the array `main_v42` after it -/

/-- The printed index maps of region 2, decided over its ten grid points: the row tile of the input moves with the
    output's, every other block is the whole of its array, and the output's row-tile index is at most 9. -/
theorem idx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row tile of the output is some grid point's. -/
theorem onto2 : ∀ q0 : Fin 10, ∃ t : Fin cfg2.N, win2_2.index t = ![q0.val, 0] :=
  (by decide +kernel : ∀ q0 : Fin 10, ∃ t : Fin grid2.N, win2_2.index t = ![q0.val, 0])

/-- The row of the whole array that row `r` of grid point `t`'s tile is. -/
def row2 (t : Fin cfg2.N) (r : Fin 10000) : Fin 100000 :=
  ⟨win2_2.index t (0 : Fin 2) * 10000 + r.val, by have := (idx2 t).2.2.2.2.1; have := r.isLt; omega⟩

/-- What grid point `t` writes back is its row tile of the map of the whole arrays: the body's tile is the map of
    the input tile, the input tile holds the same rows of the input array, and the map is computed row by row. -/
theorem flushed2 (c : Dev nD) (t : Fin cfg2.N) :
    (dat2 V c).flushed 2 t = ((cfg2.win 2).blk t).view.read (Elt Ideal) (mm (n := 100000) (k := 128) (b := 128) (V c main_v41) (V c main_arg4)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  rw [Tiles.product2]
  obtain ⟨e0, e1, e2, e3, e4, e5⟩ := idx2 t
  have hw1 : (iblk2 V c 1 t : S128x128.Idx → EReal) = V c main_arg4 := by
    funext y
    show V c main_arg4 (((cfg2.win 1).blk t).view.emb y) = V c main_arg4 y
    refine congrArg (V c main_arg4) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  rw [hw1]
  funext j
  obtain ⟨r, q, rfl⟩ : ∃ (r : Fin 10000) (q : Fin 128), j = ix2 r q := ⟨j 0, j 1, eq_ix2 j⟩
  show mm (n := 10000) (k := 128) (b := 128) (iblk2 V c 0 t) (V c main_arg4) (ix2 r q) = mm (n := 100000) (k := 128) (b := 128) (V c main_v41) (V c main_arg4) (((cfg2.win 2).blk t).view.emb (ix2 r q))
  have hemb : ((cfg2.win 2).blk t).view.emb (ix2 r q) = ix2 (row2 t r) q := by
    funext a; apply Fin.ext
    match a with
    | ⟨0, _⟩ => show win2_2.index t (0 : Fin 2) * 10000 + 1 * r.val = win2_2.index t (0 : Fin 2) * 10000 + r.val; omega
    | ⟨1, _⟩ => show win2_2.index t (1 : Fin 2) * 128 + 1 * q.val = q.val; omega
  rw [hemb]
  refine mm_rows (row2 t) (iblk2 V c 0 t) (V c main_v41) (V c main_arg4) (fun r' k => ?_) r q
  show V c main_v41 (((cfg2.win 0).blk t).view.emb (ix2 r' k)) = V c main_v41 (ix2 (row2 t r') k)
  refine congrArg (V c main_v41) ?_
  funext a; apply Fin.ext
  match a with
  | ⟨0, _⟩ => show win2_0.index t (0 : Fin 2) * 10000 + 1 * r'.val = win2_2.index t (0 : Fin 2) * 10000 + r'.val; omega
  | ⟨1, _⟩ => show win2_0.index t (1 : Fin 2) * 128 + 1 * k.val = k.val; omega

/-- An index of the array is in grid point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v42).slice (win2_2.rect t)).set ↔ _
  rw [View.set_slice_whole, Rect.mem_set_unit]
  exact Iff.rfl

/-- Every index of the array is in the block of the grid point of its row tile. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After region 2 the array `main_v42` holds the map of the arrays the region found. -/
theorem final2 (c : Dev nD) : (dat2 V c).arrAt 2 cfg2.N = mm (n := 100000) (k := 128) (b := 128) (V c main_v41) (V c main_arg4) :=
  (dat2 V c).arrAt_eq_of_cover 2 (mm (n := 100000) (k := 128) (b := 128) (V c main_v41) (V c main_arg4)) (fun t _ => flushed2 V c t) cover2

/-! ## Region 3: the array `main_v56` after it -/

/-- The printed index maps of region 3, decided over its ten grid points: the row tile of the input moves with the
    output's, every other block is the whole of its array, and the output's row-tile index is at most 9. -/
theorem idx3 : ∀ t : Fin cfg3.N, win3_0.index t (0 : Fin 2) = win3_2.index t (0 : Fin 2)
    ∧ win3_0.index t (1 : Fin 2) = 0
    ∧ win3_1.index t (0 : Fin 1) = 0
    ∧ win3_2.index t (0 : Fin 2) ≤ 9
    ∧ win3_2.index t (1 : Fin 2) = 0 :=
  (by decide +kernel : ∀ t : Fin grid3.N, _)

/-- Every row tile of the output is some grid point's. -/
theorem onto3 : ∀ q0 : Fin 10, ∃ t : Fin cfg3.N, win3_2.index t = ![q0.val, 0] :=
  (by decide +kernel : ∀ q0 : Fin 10, ∃ t : Fin grid3.N, win3_2.index t = ![q0.val, 0])

/-- The row of the whole array that row `r` of grid point `t`'s tile is. -/
def row3 (t : Fin cfg3.N) (r : Fin 10000) : Fin 100000 :=
  ⟨win3_2.index t (0 : Fin 2) * 10000 + r.val, by have := (idx3 t).2.2.2.1; have := r.isLt; omega⟩

/-- What grid point `t` writes back is its row tile of the map of the whole arrays: the body's tile is the map of
    the input tile, the input tile holds the same rows of the input array, and the map is computed row by row. -/
theorem flushed3 (c : Dev nD) (t : Fin cfg3.N) :
    (dat3 V c).flushed 2 t = ((cfg3.win 2).blk t).view.read (Elt Ideal) (biasRelu (n := 100000) (b := 128) (V c main_v55) (V c main_arg5)) := by
  show (cfg3.win 2).cut (grid3.coords t) ((dat3 V c).after 2 t) = _
  rw [after3_2]
  unfold out3_2
  rw [View.canon_unit_zero hz2]
  simp only [View.ld_unit_zero (S := S10000x128) hz2, View.ld_unit_zero (S := S128) hz1]
  rw [Tiles.bias3]
  obtain ⟨e0, e1, e2, e3, e4⟩ := idx3 t
  have hw1 : (iblk3 V c 1 t : S128.Idx → EReal) = V c main_arg5 := by
    funext y
    show V c main_arg5 (((cfg3.win 1).blk t).view.emb y) = V c main_arg5 y
    refine congrArg (V c main_arg5) ?_
    funext a; apply Fin.ext
    match a with
    | ⟨0, _⟩ => show win3_1.index t (0 : Fin 1) * 128 + 1 * (y 0).val = (y 0).val; omega
  rw [hw1]
  funext j
  obtain ⟨r, q, rfl⟩ : ∃ (r : Fin 10000) (q : Fin 128), j = ix2 r q := ⟨j 0, j 1, eq_ix2 j⟩
  show biasRelu (n := 10000) (b := 128) (iblk3 V c 0 t) (V c main_arg5) (ix2 r q) = biasRelu (n := 100000) (b := 128) (V c main_v55) (V c main_arg5) (((cfg3.win 2).blk t).view.emb (ix2 r q))
  have hemb : ((cfg3.win 2).blk t).view.emb (ix2 r q) = ix2 (row3 t r) q := by
    funext a; apply Fin.ext
    match a with
    | ⟨0, _⟩ => show win3_2.index t (0 : Fin 2) * 10000 + 1 * r.val = win3_2.index t (0 : Fin 2) * 10000 + r.val; omega
    | ⟨1, _⟩ => show win3_2.index t (1 : Fin 2) * 128 + 1 * q.val = q.val; omega
  rw [hemb]
  refine biasRelu_rows (row3 t) (iblk3 V c 0 t) (V c main_v55) (V c main_arg5) (fun r' k => ?_) r q
  show V c main_v55 (((cfg3.win 0).blk t).view.emb (ix2 r' k)) = V c main_v55 (ix2 (row3 t r') k)
  refine congrArg (V c main_v55) ?_
  funext a; apply Fin.ext
  match a with
  | ⟨0, _⟩ => show win3_0.index t (0 : Fin 2) * 10000 + 1 * r'.val = win3_2.index t (0 : Fin 2) * 10000 + r'.val; omega
  | ⟨1, _⟩ => show win3_0.index t (1 : Fin 2) * 128 + 1 * k.val = k.val; omega

/-- An index of the array is in grid point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v56).slice (win3_2.rect t)).set ↔ _
  rw [View.set_slice_whole, Rect.mem_set_unit]
  exact Iff.rfl

/-- Every index of the array is in the block of the grid point of its row tile. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After region 3 the array `main_v56` holds the map of the arrays the region found. -/
theorem final3 (c : Dev nD) : (dat3 V c).arrAt 2 cfg3.N = biasRelu (n := 100000) (b := 128) (V c main_v55) (V c main_arg5) :=
  (dat3 V c).arrAt_eq_of_cover 2 (biasRelu (n := 100000) (b := 128) (V c main_v55) (V c main_arg5)) (fun t _ => flushed3 V c t) cover3

/-! ## Region 4: the array `main_v57` after it -/

/-- The printed index maps of region 4, decided over its ten grid points: the row tile of the input moves with the
    output's, every other block is the whole of its array, and the output's row-tile index is at most 9. -/
theorem idx4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) ≤ 9
    ∧ win4_3.index t (1 : Fin 2) = 0 :=
  (by decide +kernel : ∀ t : Fin grid4.N, _)

/-- Every row tile of the output is some grid point's. -/
theorem onto4 : ∀ q0 : Fin 10, ∃ t : Fin cfg4.N, win4_3.index t = ![q0.val, 0] :=
  (by decide +kernel : ∀ q0 : Fin 10, ∃ t : Fin grid4.N, win4_3.index t = ![q0.val, 0])

/-- The row of the whole array that row `r` of grid point `t`'s tile is. -/
def row4 (t : Fin cfg4.N) (r : Fin 10000) : Fin 100000 :=
  ⟨win4_3.index t (0 : Fin 2) * 10000 + r.val, by have := (idx4 t).2.2.2.2.2.1; have := r.isLt; omega⟩

/-- What grid point `t` writes back is its row tile of the map of the whole arrays: the body's tile is the map of
    the input tile, the input tile holds the same rows of the input array, and the map is computed row by row. -/
theorem flushed4 (c : Dev nD) (t : Fin cfg4.N) :
    (dat4 V c).flushed 3 t = ((cfg4.win 3).blk t).view.read (Elt Ideal) (head (n := 100000) (k := 128) (b := 40) (V c main_v56) (V c main_arg6) (V c main_arg7)) := by
  show (cfg4.win 3).cut (grid4.coords t) ((dat4 V c).after 3 t) = _
  rw [after4_3]
  unfold out4_3
  rw [View.canon_unit_zero hz2]
  simp only [View.ld_unit_zero (S := S10000x128) hz2, View.ld_unit_zero (S := S128x40) hz2, View.ld_unit_zero (S := S40) hz1]
  rw [Tiles.head4]
  obtain ⟨e0, e1, e2, e3, e4, e5, e6⟩ := idx4 t
  have hw1 : (iblk4 V c 1 t : S128x40.Idx → EReal) = V c main_arg6 := by
    funext y
    show V c main_arg6 (((cfg4.win 1).blk t).view.emb y) = V c main_arg6 y
    refine congrArg (V c main_arg6) ?_
    funext a; apply Fin.ext
    match a with
    | ⟨0, _⟩ => show win4_1.index t (0 : Fin 2) * 128 + 1 * (y 0).val = (y 0).val; omega
    | ⟨1, _⟩ => show win4_1.index t (1 : Fin 2) * 40 + 1 * (y 1).val = (y 1).val; omega
  have hw2 : (iblk4 V c 2 t : S40.Idx → EReal) = V c main_arg7 := by
    funext y
    show V c main_arg7 (((cfg4.win 2).blk t).view.emb y) = V c main_arg7 y
    refine congrArg (V c main_arg7) ?_
    funext a; apply Fin.ext
    match a with
    | ⟨0, _⟩ => show win4_2.index t (0 : Fin 1) * 40 + 1 * (y 0).val = (y 0).val; omega
  rw [hw1, hw2]
  funext j
  obtain ⟨r, q, rfl⟩ : ∃ (r : Fin 10000) (q : Fin 40), j = ix2 r q := ⟨j 0, j 1, eq_ix2 j⟩
  show head (n := 10000) (k := 128) (b := 40) (iblk4 V c 0 t) (V c main_arg6) (V c main_arg7) (ix2 r q) = head (n := 100000) (k := 128) (b := 40) (V c main_v56) (V c main_arg6) (V c main_arg7) (((cfg4.win 3).blk t).view.emb (ix2 r q))
  have hemb : ((cfg4.win 3).blk t).view.emb (ix2 r q) = ix2 (row4 t r) q := by
    funext a; apply Fin.ext
    match a with
    | ⟨0, _⟩ => show win4_3.index t (0 : Fin 2) * 10000 + 1 * r.val = win4_3.index t (0 : Fin 2) * 10000 + r.val; omega
    | ⟨1, _⟩ => show win4_3.index t (1 : Fin 2) * 40 + 1 * q.val = q.val; omega
  rw [hemb]
  refine head_rows (row4 t) (iblk4 V c 0 t) (V c main_v56) (V c main_arg6) (V c main_arg7) (fun r' k => ?_) r q
  show V c main_v56 (((cfg4.win 0).blk t).view.emb (ix2 r' k)) = V c main_v56 (ix2 (row4 t r') k)
  refine congrArg (V c main_v56) ?_
  funext a; apply Fin.ext
  match a with
  | ⟨0, _⟩ => show win4_0.index t (0 : Fin 2) * 10000 + 1 * r'.val = win4_3.index t (0 : Fin 2) * 10000 + r'.val; omega
  | ⟨1, _⟩ => show win4_0.index t (1 : Fin 2) * 128 + 1 * k.val = k.val; omega

/-- An index of the array is in grid point `t`'s block iff each coordinate is in the block's range on its axis. -/
theorem mem_blk4 (t : Fin cfg4.N) (i : S100000x40.Idx) :
    i ∈ ((cfg4.win 3).blk t).view.set ↔ ∀ a : Fin 2, win4_3.index t a * S10000x40.size a ≤ (i a).val ∧ (i a).val < win4_3.index t a * S10000x40.size a + S10000x40.size a := by
  show i ∈ ((View.whole main_v57).slice (win4_3.rect t)).set ↔ _
  rw [View.set_slice_whole, Rect.mem_set_unit]
  exact Iff.rfl

/-- Every index of the array is in the block of the grid point of its row tile. -/
theorem cover4 (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  obtain ⟨t, ht⟩ := onto4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 40 ≤ (i 1).val ∧ (i 1).val < win4_3.index t (1 : Fin 2) * 40 + 40; omega

/-- After region 4 the array `main_v57` holds the map of the arrays the region found. -/
theorem final4 (c : Dev nD) : (dat4 V c).arrAt 3 cfg4.N = head (n := 100000) (k := 128) (b := 40) (V c main_v56) (V c main_arg6) (V c main_arg7) :=
  (dat4 V c).arrAt_eq_of_cover 3 (head (n := 100000) (k := 128) (b := 40) (V c main_v56) (V c main_arg6) (V c main_arg7)) (fun t _ => flushed4 V c t) cover4

end Cert.KernelIdeal.Arrays

end
-- ==== Proof.HostMaps.lean ====
/-
  The reference program's operations as maps of whole arrays, and what they are on the extended reals.

  The graph enters through three index arrays and one weight per edge, all computed from the edge list: the source
  and target of every edge followed by one self-loop per node; the same with a negative index counted from the end;
  the inverse square root of each node's in-degree; and per edge the product of that number at its two ends.  The
  aggregation gathers the rows of an [n, 128] array at the sources, scales each by its edge's weight and adds it into
  the row of its target.  It is kept as one opaque map: both programs apply the same one.

  The dense operations are the specification's: the host's contraction of the inner axis is the matrix product; a
  bias broadcast to a row and down the rows, added, then the maximum with a broadcast zero, is bias-then-maximum;
  the outlined log-softmax — row maximum from −∞ (and once more against −∞, which changes nothing), shift,
  exponential, row sum from 0, logarithm, shift — is the row-wise log-softmax.
-/
import proofs.«164958_j45200235823717_1_alg».proof.ReferenceIdeal
import proofs.«164958_j45200235823717_1_alg».proof.Proof.Gen.ReferenceIdeal
import proofs.«164958_j45200235823717_1_alg».proof.Proof.Spec

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

/-- Integer arrays of a shape. -/
abbrev I32 (S : Shape) := IVec S 32
/-- Float arrays of a shape, as extended reals. -/
abbrev F32 (S : Shape) := FVec Ideal S .f32

/-! ## The graph -/

/-- The sources of the edges, then one self-loop per node. -/
def src (e : I32 S2x1600000) : I32 S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the edges, then one self-loop per node. -/
def dst (e : I32 S2x1600000) : I32 S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counted from the end of the 100000 nodes. -/
def wrap (v : I32 S1700000) : I32 S1700000 :=
  select (cmpi .slt v (broadcastInDim S1700000 ![] bcast_S_S1700000 (constantI S_ 32 0#32)))
    (addi v (broadcastInDim S1700000 ![] bcast_S_S1700000 (constantI S_ 32 100000#32))) v

/-- The inverse square root of every node's in-degree (self-loop included). -/
def dinv (d : I32 S1700000) : F32 S100000 :=
  Host.rsqrt (Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32)))

/-- The weight of every edge from per-node numbers `δ`: the product of `δ` at its source and at its target. -/
def weightOf (δ : F32 S100000) (s d : I32 S1700000) : F32 S1700000 :=
  mulf (Host.gather gather_S100000_S1700000x1_S1700000_n_0_n_n_0_1_1 δ (broadcastInDim S1700000x1 ![0] bcast_S1700000_S1700000x1_0 (wrap s)))
    (Host.gather gather_S100000_S1700000x1_S1700000_n_0_n_n_0_1_1 δ (broadcastInDim S1700000x1 ![0] bcast_S1700000_S1700000x1_0 (wrap d)))

/-- The weight of every edge: the product of the inverse square root of the in-degree at its two ends. -/
def weight (s d : I32 S1700000) : F32 S1700000 := weightOf (dinv d) s d

/-- The aggregation over sources `s`, targets `d` and edge weights `ω`: gather, scale, add into the target's row. -/
def aggOf (s d : I32 S1700000) (ω : F32 S1700000) (h : F32 S100000x128) : F32 S100000x128 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (Host.gather gather_S100000x128_S1700000x1_S1700000x128_1_0_n_n_0_1_1128 h (broadcastInDim S1700000x1 ![0] bcast_S1700000_S1700000x1_0 (wrap s)))
      (broadcastInDim S1700000x128 ![0, 1] bcast_S1700000x1_S1700000x128_0_1 (broadcastInDim S1700000x1 ![0] bcast_S1700000_S1700000x1_0 ω)))

/-- The aggregation of the graph given by an edge list. -/
def agg (e : I32 S2x1600000) (h : F32 S100000x128) : F32 S100000x128 :=
  aggOf (src e) (dst e) (weight (src e) (dst e)) h

/-! ## The dense operations -/

/-- The host's [100000, 128] × [128, 128] contraction. -/
def dot128 (x : F32 S100000x128) (w : F32 S128x128) : F32 S100000x128 :=
  Host.dotGeneral dot_S100000x128_S128x128_S100000x128_1_0_0_1_n_n none x w

/-- Bias to a row, down the rows, added; then the maximum with a broadcast zero. -/
def biasMax (a : F32 S100000x128) (b : F32 S128) : F32 S100000x128 :=
  maximumf (addf a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The host's [100000, 128] × [128, 40] contraction plus the bias on every row. -/
def logitsH (h : F32 S100000x128) (w : F32 S128x40) (b : F32 S40) : F32 S100000x40 :=
  addf (Host.dotGeneral dot_S100000x128_S128x40_S100000x40_1_0_0_1_n_n none h w)
    (broadcastInDim S100000x40 ![0, 1] bcast_S1x40_S100000x40_0_1 (broadcastInDim S1x40 ![1] bcast_S40_S1x40_1 b))

/-- The row maximum as the outlined log-softmax writes it, broadcast back across the row. -/
def rowMaxH (z : F32 S100000x40) : F32 S100000x40 :=
  broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce FloatOps.maximumf z (constant (F := Ideal) S_ .f32 0xFF800000#32) reducesTo_S100000x40_S100000_d1 h_S_)))

/-- The outlined log-softmax. -/
def lsmH (z : F32 S100000x40) : F32 S100000x40 :=
  subf (subf z (rowMaxH z))
    (broadcastInDim S100000x40 ![0, 1] bcast_S100000x1_S100000x40_0_1 (Host.log (broadcastInDim S100000x1 ![0] bcast_S100000_S100000x1_0
      (Host.reduceAdd (Host.exp (subf z (rowMaxH z))) (constant (F := Ideal) S_ .f32 0x00000000#32) reducesTo_S100000x40_S100000_d1 h_S_))))

/-- The whole reference computation over the aggregation `A`. -/
def netH (A : F32 S100000x128 → F32 S100000x128) (x : F32 S100000x128) (W1 : F32 S128x128) (b1 : F32 S128) (W2 : F32 S128x128)
    (b2 : F32 S128) (Wfc : F32 S128x40) (bfc : F32 S40) : F32 S100000x40 :=
  lsmH (logitsH (biasMax (A (dot128 (biasMax (A (dot128 x W1)) b1) W2)) b2) Wfc bfc)

end Cert.ReferenceIdeal.Maps

end
-- ==== Proof.KernelFold.lean ====
/-
  The kernel program's result, folded back to its arguments.

  The buffer contents at the segment boundaries are a fold: a stretch of host operations applies them, a region
  replaces its arrays by what its write-backs leave and leaves every other buffer alone.  Read from the launch:

    • the first stretch computes the graph — sources, targets, edge weights — from the edge list and writes no
      argument;
    • region 0 leaves x · W1 in its output array;
    • the second stretch aggregates that over the graph;
    • region 1 adds the bias and takes the maximum with zero; region 2 multiplies by W2;
    • the third stretch aggregates again; region 3 adds the bias and takes the maximum with zero;
    • region 4 leaves the head of that in the result array.

  A buffer that a stretch does not write and that is not one of a region's arrays is carried across unchanged, which
  is how the graph reaches the second aggregation and every weight and bias reaches the region that reads it.
-/
import proofs.«164958_j45200235823717_1_alg».proof.Proof.Gen.KernelIdeal.Frame
import proofs.«164958_j45200235823717_1_alg».proof.Proof.Arrays
import proofs.«164958_j45200235823717_1_alg».proof.Proof.HostMaps
import Idealize.ShloMosaic.Lib.StableHlo.Run

set_option maxRecDepth 16384

noncomputable section

namespace Cert.KernelIdeal.Fold

open Cert.KernelIdeal Cert.KernelIdeal.Gen Cert.GraphConv
open Idealize.ShloMosaic Idealize.ShloMosaic.TcCoe Idealize.SL.Sem Idealize.ShloMosaic.StableHlo

/-! ## The host stretches, from any valuation -/

section Stretches

variable (W : Valuation τ sig (Elt Ideal))

theorem h0_v3 : after hostOps0 W (Proc.devRef .tc main_v3) = Cert.ReferenceIdeal.Maps.src (W (Proc.devRef .tc main_arg1)) := by
  dsimp only [hostOps0]; after_results_simp <;> rfl
theorem h0_v6 : after hostOps0 W (Proc.devRef .tc main_v6) = Cert.ReferenceIdeal.Maps.dst (W (Proc.devRef .tc main_arg1)) := by
  dsimp only [hostOps0]; after_results_simp <;> rfl
theorem h0_v26 : after hostOps0 W (Proc.devRef .tc main_v26)
    = Cert.ReferenceIdeal.Maps.weight (Cert.ReferenceIdeal.Maps.src (W (Proc.devRef .tc main_arg1))) (Cert.ReferenceIdeal.Maps.dst (W (Proc.devRef .tc main_arg1))) := by
  dsimp only [hostOps0]; after_results_simp <;> rfl
theorem k0_arg0 : after hostOps0 W (Proc.devRef .tc main_arg0) = W (Proc.devRef .tc main_arg0) := by
  dsimp only [hostOps0]; after_results_simp
theorem k0_arg2 : after hostOps0 W (Proc.devRef .tc main_arg2) = W (Proc.devRef .tc main_arg2) := by
  dsimp only [hostOps0]; after_results_simp
theorem k0_arg3 : after hostOps0 W (Proc.devRef .tc main_arg3) = W (Proc.devRef .tc main_arg3) := by
  dsimp only [hostOps0]; after_results_simp
theorem k0_arg4 : after hostOps0 W (Proc.devRef .tc main_arg4) = W (Proc.devRef .tc main_arg4) := by
  dsimp only [hostOps0]; after_results_simp
theorem k0_arg5 : after hostOps0 W (Proc.devRef .tc main_arg5) = W (Proc.devRef .tc main_arg5) := by
  dsimp only [hostOps0]; after_results_simp
theorem k0_arg6 : after hostOps0 W (Proc.devRef .tc main_arg6) = W (Proc.devRef .tc main_arg6) := by
  dsimp only [hostOps0]; after_results_simp
theorem k0_arg7 : after hostOps0 W (Proc.devRef .tc main_arg7) = W (Proc.devRef .tc main_arg7) := by
  dsimp only [hostOps0]; after_results_simp

theorem h1_v40 : after hostOps1 W (Proc.devRef .tc main_v40)
    = Cert.ReferenceIdeal.Maps.aggOf (W (Proc.devRef .tc main_v3)) (W (Proc.devRef .tc main_v6)) (W (Proc.devRef .tc main_v26)) (W (Proc.devRef .tc main_v27)) := by
  dsimp only [hostOps1]; after_results_simp <;> rfl
theorem k1_v3 : after hostOps1 W (Proc.devRef .tc main_v3) = W (Proc.devRef .tc main_v3) := by
  dsimp only [hostOps1]; after_results_simp
theorem k1_v6 : after hostOps1 W (Proc.devRef .tc main_v6) = W (Proc.devRef .tc main_v6) := by
  dsimp only [hostOps1]; after_results_simp
theorem k1_v26 : after hostOps1 W (Proc.devRef .tc main_v26) = W (Proc.devRef .tc main_v26) := by
  dsimp only [hostOps1]; after_results_simp
theorem k1_arg3 : after hostOps1 W (Proc.devRef .tc main_arg3) = W (Proc.devRef .tc main_arg3) := by
  dsimp only [hostOps1]; after_results_simp
theorem k1_arg4 : after hostOps1 W (Proc.devRef .tc main_arg4) = W (Proc.devRef .tc main_arg4) := by
  dsimp only [hostOps1]; after_results_simp
theorem k1_arg5 : after hostOps1 W (Proc.devRef .tc main_arg5) = W (Proc.devRef .tc main_arg5) := by
  dsimp only [hostOps1]; after_results_simp
theorem k1_arg6 : after hostOps1 W (Proc.devRef .tc main_arg6) = W (Proc.devRef .tc main_arg6) := by
  dsimp only [hostOps1]; after_results_simp
theorem k1_arg7 : after hostOps1 W (Proc.devRef .tc main_arg7) = W (Proc.devRef .tc main_arg7) := by
  dsimp only [hostOps1]; after_results_simp

theorem h3_v55 : after hostOps3 W (Proc.devRef .tc main_v55)
    = Cert.ReferenceIdeal.Maps.aggOf (W (Proc.devRef .tc main_v3)) (W (Proc.devRef .tc main_v6)) (W (Proc.devRef .tc main_v26)) (W (Proc.devRef .tc main_v42)) := by
  dsimp only [hostOps3]; after_results_simp <;> rfl
theorem k3_arg5 : after hostOps3 W (Proc.devRef .tc main_arg5) = W (Proc.devRef .tc main_arg5) := by
  dsimp only [hostOps3]; after_results_simp
theorem k3_arg6 : after hostOps3 W (Proc.devRef .tc main_arg6) = W (Proc.devRef .tc main_arg6) := by
  dsimp only [hostOps3]; after_results_simp
theorem k3_arg7 : after hostOps3 W (Proc.devRef .tc main_arg7) = W (Proc.devRef .tc main_arg7) := by
  dsimp only [hostOps3]; after_results_simp

end Stretches

/-! ## What is carried across -/

variable (m : (ℓ : Loc nD τ sig) → Buf (Elt Ideal) ℓ) (ρ : Dev nD → PrngReg) (c : Dev nD)

theorem v3_1 : W1 m ρ c (Proc.devRef .tc main_v3) = Cert.ReferenceIdeal.Maps.src (m ((c : Thread nD τ).loc main_arg1)) := h0_v3 (W0 m ρ c)
theorem v3_2 : W2 m ρ c (Proc.devRef .tc main_v3) = Cert.ReferenceIdeal.Maps.src (m ((c : Thread nD τ).loc main_arg1)) := (W2_of_ne m ρ c main_v3 (by decide)).trans (v3_1 m ρ c)
theorem v3_3 : W3 m ρ c (Proc.devRef .tc main_v3) = Cert.ReferenceIdeal.Maps.src (m ((c : Thread nD τ).loc main_arg1)) := (k1_v3 (W2 m ρ c)).trans (v3_2 m ρ c)
theorem v3_4 : W4 m ρ c (Proc.devRef .tc main_v3) = Cert.ReferenceIdeal.Maps.src (m ((c : Thread nD τ).loc main_arg1)) := (W4_of_ne m ρ c main_v3 (by decide)).trans (v3_3 m ρ c)
theorem v3_5 : W5 m ρ c (Proc.devRef .tc main_v3) = Cert.ReferenceIdeal.Maps.src (m ((c : Thread nD τ).loc main_arg1)) := (W5_of_ne m ρ c main_v3 (by decide)).trans (v3_4 m ρ c)
theorem v6_1 : W1 m ρ c (Proc.devRef .tc main_v6) = Cert.ReferenceIdeal.Maps.dst (m ((c : Thread nD τ).loc main_arg1)) := h0_v6 (W0 m ρ c)
theorem v6_2 : W2 m ρ c (Proc.devRef .tc main_v6) = Cert.ReferenceIdeal.Maps.dst (m ((c : Thread nD τ).loc main_arg1)) := (W2_of_ne m ρ c main_v6 (by decide)).trans (v6_1 m ρ c)
theorem v6_3 : W3 m ρ c (Proc.devRef .tc main_v6) = Cert.ReferenceIdeal.Maps.dst (m ((c : Thread nD τ).loc main_arg1)) := (k1_v6 (W2 m ρ c)).trans (v6_2 m ρ c)
theorem v6_4 : W4 m ρ c (Proc.devRef .tc main_v6) = Cert.ReferenceIdeal.Maps.dst (m ((c : Thread nD τ).loc main_arg1)) := (W4_of_ne m ρ c main_v6 (by decide)).trans (v6_3 m ρ c)
theorem v6_5 : W5 m ρ c (Proc.devRef .tc main_v6) = Cert.ReferenceIdeal.Maps.dst (m ((c : Thread nD τ).loc main_arg1)) := (W5_of_ne m ρ c main_v6 (by decide)).trans (v6_4 m ρ c)
theorem v26_1 : W1 m ρ c (Proc.devRef .tc main_v26) = Cert.ReferenceIdeal.Maps.weight (Cert.ReferenceIdeal.Maps.src (m ((c : Thread nD τ).loc main_arg1))) (Cert.ReferenceIdeal.Maps.dst (m ((c : Thread nD τ).loc main_arg1))) := h0_v26 (W0 m ρ c)
theorem v26_2 : W2 m ρ c (Proc.devRef .tc main_v26) = Cert.ReferenceIdeal.Maps.weight (Cert.ReferenceIdeal.Maps.src (m ((c : Thread nD τ).loc main_arg1))) (Cert.ReferenceIdeal.Maps.dst (m ((c : Thread nD τ).loc main_arg1))) := (W2_of_ne m ρ c main_v26 (by decide)).trans (v26_1 m ρ c)
theorem v26_3 : W3 m ρ c (Proc.devRef .tc main_v26) = Cert.ReferenceIdeal.Maps.weight (Cert.ReferenceIdeal.Maps.src (m ((c : Thread nD τ).loc main_arg1))) (Cert.ReferenceIdeal.Maps.dst (m ((c : Thread nD τ).loc main_arg1))) := (k1_v26 (W2 m ρ c)).trans (v26_2 m ρ c)
theorem v26_4 : W4 m ρ c (Proc.devRef .tc main_v26) = Cert.ReferenceIdeal.Maps.weight (Cert.ReferenceIdeal.Maps.src (m ((c : Thread nD τ).loc main_arg1))) (Cert.ReferenceIdeal.Maps.dst (m ((c : Thread nD τ).loc main_arg1))) := (W4_of_ne m ρ c main_v26 (by decide)).trans (v26_3 m ρ c)
theorem v26_5 : W5 m ρ c (Proc.devRef .tc main_v26) = Cert.ReferenceIdeal.Maps.weight (Cert.ReferenceIdeal.Maps.src (m ((c : Thread nD τ).loc main_arg1))) (Cert.ReferenceIdeal.Maps.dst (m ((c : Thread nD τ).loc main_arg1))) := (W5_of_ne m ρ c main_v26 (by decide)).trans (v26_4 m ρ c)
theorem arg0_1 : W1 m ρ c (Proc.devRef .tc main_arg0) = (m ((c : Thread nD τ).loc main_arg0)) := k0_arg0 (W0 m ρ c)
theorem arg2_1 : W1 m ρ c (Proc.devRef .tc main_arg2) = (m ((c : Thread nD τ).loc main_arg2)) := k0_arg2 (W0 m ρ c)
theorem arg3_1 : W1 m ρ c (Proc.devRef .tc main_arg3) = (m ((c : Thread nD τ).loc main_arg3)) := k0_arg3 (W0 m ρ c)
theorem arg3_2 : W2 m ρ c (Proc.devRef .tc main_arg3) = (m ((c : Thread nD τ).loc main_arg3)) := (W2_of_ne m ρ c main_arg3 (by decide)).trans (arg3_1 m ρ c)
theorem arg3_3 : W3 m ρ c (Proc.devRef .tc main_arg3) = (m ((c : Thread nD τ).loc main_arg3)) := (k1_arg3 (W2 m ρ c)).trans (arg3_2 m ρ c)
theorem arg4_1 : W1 m ρ c (Proc.devRef .tc main_arg4) = (m ((c : Thread nD τ).loc main_arg4)) := k0_arg4 (W0 m ρ c)
theorem arg4_2 : W2 m ρ c (Proc.devRef .tc main_arg4) = (m ((c : Thread nD τ).loc main_arg4)) := (W2_of_ne m ρ c main_arg4 (by decide)).trans (arg4_1 m ρ c)
theorem arg4_3 : W3 m ρ c (Proc.devRef .tc main_arg4) = (m ((c : Thread nD τ).loc main_arg4)) := (k1_arg4 (W2 m ρ c)).trans (arg4_2 m ρ c)
theorem arg4_4 : W4 m ρ c (Proc.devRef .tc main_arg4) = (m ((c : Thread nD τ).loc main_arg4)) := (W4_of_ne m ρ c main_arg4 (by decide)).trans (arg4_3 m ρ c)
theorem arg5_1 : W1 m ρ c (Proc.devRef .tc main_arg5) = (m ((c : Thread nD τ).loc main_arg5)) := k0_arg5 (W0 m ρ c)
theorem arg5_2 : W2 m ρ c (Proc.devRef .tc main_arg5) = (m ((c : Thread nD τ).loc main_arg5)) := (W2_of_ne m ρ c main_arg5 (by decide)).trans (arg5_1 m ρ c)
theorem arg5_3 : W3 m ρ c (Proc.devRef .tc main_arg5) = (m ((c : Thread nD τ).loc main_arg5)) := (k1_arg5 (W2 m ρ c)).trans (arg5_2 m ρ c)
theorem arg5_4 : W4 m ρ c (Proc.devRef .tc main_arg5) = (m ((c : Thread nD τ).loc main_arg5)) := (W4_of_ne m ρ c main_arg5 (by decide)).trans (arg5_3 m ρ c)
theorem arg5_5 : W5 m ρ c (Proc.devRef .tc main_arg5) = (m ((c : Thread nD τ).loc main_arg5)) := (W5_of_ne m ρ c main_arg5 (by decide)).trans (arg5_4 m ρ c)
theorem arg5_6 : W6 m ρ c (Proc.devRef .tc main_arg5) = (m ((c : Thread nD τ).loc main_arg5)) := (k3_arg5 (W5 m ρ c)).trans (arg5_5 m ρ c)
theorem arg6_1 : W1 m ρ c (Proc.devRef .tc main_arg6) = (m ((c : Thread nD τ).loc main_arg6)) := k0_arg6 (W0 m ρ c)
theorem arg6_2 : W2 m ρ c (Proc.devRef .tc main_arg6) = (m ((c : Thread nD τ).loc main_arg6)) := (W2_of_ne m ρ c main_arg6 (by decide)).trans (arg6_1 m ρ c)
theorem arg6_3 : W3 m ρ c (Proc.devRef .tc main_arg6) = (m ((c : Thread nD τ).loc main_arg6)) := (k1_arg6 (W2 m ρ c)).trans (arg6_2 m ρ c)
theorem arg6_4 : W4 m ρ c (Proc.devRef .tc main_arg6) = (m ((c : Thread nD τ).loc main_arg6)) := (W4_of_ne m ρ c main_arg6 (by decide)).trans (arg6_3 m ρ c)
theorem arg6_5 : W5 m ρ c (Proc.devRef .tc main_arg6) = (m ((c : Thread nD τ).loc main_arg6)) := (W5_of_ne m ρ c main_arg6 (by decide)).trans (arg6_4 m ρ c)
theorem arg6_6 : W6 m ρ c (Proc.devRef .tc main_arg6) = (m ((c : Thread nD τ).loc main_arg6)) := (k3_arg6 (W5 m ρ c)).trans (arg6_5 m ρ c)
theorem arg6_7 : W7 m ρ c (Proc.devRef .tc main_arg6) = (m ((c : Thread nD τ).loc main_arg6)) := (W7_of_ne m ρ c main_arg6 (by decide)).trans (arg6_6 m ρ c)
theorem arg7_1 : W1 m ρ c (Proc.devRef .tc main_arg7) = (m ((c : Thread nD τ).loc main_arg7)) := k0_arg7 (W0 m ρ c)
theorem arg7_2 : W2 m ρ c (Proc.devRef .tc main_arg7) = (m ((c : Thread nD τ).loc main_arg7)) := (W2_of_ne m ρ c main_arg7 (by decide)).trans (arg7_1 m ρ c)
theorem arg7_3 : W3 m ρ c (Proc.devRef .tc main_arg7) = (m ((c : Thread nD τ).loc main_arg7)) := (k1_arg7 (W2 m ρ c)).trans (arg7_2 m ρ c)
theorem arg7_4 : W4 m ρ c (Proc.devRef .tc main_arg7) = (m ((c : Thread nD τ).loc main_arg7)) := (W4_of_ne m ρ c main_arg7 (by decide)).trans (arg7_3 m ρ c)
theorem arg7_5 : W5 m ρ c (Proc.devRef .tc main_arg7) = (m ((c : Thread nD τ).loc main_arg7)) := (W5_of_ne m ρ c main_arg7 (by decide)).trans (arg7_4 m ρ c)
theorem arg7_6 : W6 m ρ c (Proc.devRef .tc main_arg7) = (m ((c : Thread nD τ).loc main_arg7)) := (k3_arg7 (W5 m ρ c)).trans (arg7_5 m ρ c)
theorem arg7_7 : W7 m ρ c (Proc.devRef .tc main_arg7) = (m ((c : Thread nD τ).loc main_arg7)) := (W7_of_ne m ρ c main_arg7 (by decide)).trans (arg7_6 m ρ c)

/-! ## The boundary contents, region by region -/

theorem v27_2 : W2 m ρ c (Proc.devRef .tc main_v27) = mm (n := 100000) (k := 128) (b := 128) (m ((c : Thread nD τ).loc main_arg0)) (m ((c : Thread nD τ).loc main_arg2)) :=
  (W2_arr m ρ c 2).trans ((Arrays.final0 (V1 m ρ) c).trans (by
    rw [show V1 m ρ c main_arg0 = _ from arg0_1 m ρ c, show V1 m ρ c main_arg2 = _ from arg2_1 m ρ c]))

theorem v40_3 : W3 m ρ c (Proc.devRef .tc main_v40) = Cert.ReferenceIdeal.Maps.agg (m ((c : Thread nD τ).loc main_arg1)) (mm (n := 100000) (k := 128) (b := 128) (m ((c : Thread nD τ).loc main_arg0)) (m ((c : Thread nD τ).loc main_arg2))) :=
  (h1_v40 (W2 m ρ c)).trans (by rw [v3_2 m ρ c, v6_2 m ρ c, v26_2 m ρ c, v27_2 m ρ c]; rfl)

theorem v41_4 : W4 m ρ c (Proc.devRef .tc main_v41) = biasRelu (n := 100000) (b := 128) (Cert.ReferenceIdeal.Maps.agg (m ((c : Thread nD τ).loc main_arg1)) (mm (n := 100000) (k := 128) (b := 128) (m ((c : Thread nD τ).loc main_arg0)) (m ((c : Thread nD τ).loc main_arg2)))) (m ((c : Thread nD τ).loc main_arg3)) :=
  (W4_arr m ρ c 2).trans ((Arrays.final1 (V3 m ρ) c).trans (by
    rw [show V3 m ρ c main_v40 = _ from v40_3 m ρ c, show V3 m ρ c main_arg3 = _ from arg3_3 m ρ c]))

theorem v42_5 : W5 m ρ c (Proc.devRef .tc main_v42) = mm (n := 100000) (k := 128) (b := 128) (biasRelu (n := 100000) (b := 128) (Cert.ReferenceIdeal.Maps.agg (m ((c : Thread nD τ).loc main_arg1)) (mm (n := 100000) (k := 128) (b := 128) (m ((c : Thread nD τ).loc main_arg0)) (m ((c : Thread nD τ).loc main_arg2)))) (m ((c : Thread nD τ).loc main_arg3))) (m ((c : Thread nD τ).loc main_arg4)) :=
  (W5_arr m ρ c 2).trans ((Arrays.final2 (V4 m ρ) c).trans (by
    rw [show V4 m ρ c main_v41 = _ from v41_4 m ρ c, show V4 m ρ c main_arg4 = _ from arg4_4 m ρ c]))

theorem v55_6 : W6 m ρ c (Proc.devRef .tc main_v55) = Cert.ReferenceIdeal.Maps.agg (m ((c : Thread nD τ).loc main_arg1)) (mm (n := 100000) (k := 128) (b := 128) (biasRelu (n := 100000) (b := 128) (Cert.ReferenceIdeal.Maps.agg (m ((c : Thread nD τ).loc main_arg1)) (mm (n := 100000) (k := 128) (b := 128) (m ((c : Thread nD τ).loc main_arg0)) (m ((c : Thread nD τ).loc main_arg2)))) (m ((c : Thread nD τ).loc main_arg3))) (m ((c : Thread nD τ).loc main_arg4))) :=
  (h3_v55 (W5 m ρ c)).trans (by rw [v3_5 m ρ c, v6_5 m ρ c, v26_5 m ρ c, v42_5 m ρ c]; rfl)

theorem v56_7 : W7 m ρ c (Proc.devRef .tc main_v56) = biasRelu (n := 100000) (b := 128) (Cert.ReferenceIdeal.Maps.agg (m ((c : Thread nD τ).loc main_arg1)) (mm (n := 100000) (k := 128) (b := 128) (biasRelu (n := 100000) (b := 128) (Cert.ReferenceIdeal.Maps.agg (m ((c : Thread nD τ).loc main_arg1)) (mm (n := 100000) (k := 128) (b := 128) (m ((c : Thread nD τ).loc main_arg0)) (m ((c : Thread nD τ).loc main_arg2)))) (m ((c : Thread nD τ).loc main_arg3))) (m ((c : Thread nD τ).loc main_arg4)))) (m ((c : Thread nD τ).loc main_arg5)) :=
  (W7_arr m ρ c 2).trans ((Arrays.final3 (V6 m ρ) c).trans (by
    rw [show V6 m ρ c main_v55 = _ from v55_6 m ρ c, show V6 m ρ c main_arg5 = _ from arg5_6 m ρ c]))

theorem v57_8 : W8 m ρ c (Proc.devRef .tc main_v57) = head (n := 100000) (k := 128) (b := 40) (biasRelu (n := 100000) (b := 128) (Cert.ReferenceIdeal.Maps.agg (m ((c : Thread nD τ).loc main_arg1)) (mm (n := 100000) (k := 128) (b := 128) (biasRelu (n := 100000) (b := 128) (Cert.ReferenceIdeal.Maps.agg (m ((c : Thread nD τ).loc main_arg1)) (mm (n := 100000) (k := 128) (b := 128) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) (m ((c : Thread nD τ).loc main_arg7)) :=
  (W8_arr m ρ c 3).trans ((Arrays.final4 (V7 m ρ) c).trans (by
    rw [show V7 m ρ c main_v56 = _ from v56_7 m ρ c, show V7 m ρ c main_arg6 = _ from arg6_7 m ρ c,
      show V7 m ρ c main_arg7 = _ from arg7_7 m ρ c]))

/-- The result buffer after the run holds the specification's network, over the graph's aggregation, of the
    argument arrays. -/
theorem result : W8 m ρ c (Proc.devRef .tc main_v57)
    = net (n := 100000) (Cert.ReferenceIdeal.Maps.agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  v57_8 m ρ c

end Cert.KernelIdeal.Fold

end
-- ==== Proof.KernelValue.lean ====
/-
  The kernel program's run, its result read: every weakly fair execution terminates, nothing faulting, with the result
  array at the specification's network — two graph-convolution layers and the log-softmax head, over the graph's
  aggregation — of the argument arrays, and the arguments unchanged.
-/
import proofs.«164958_j45200235823717_1_alg».proof.Proof.KernelRun
import proofs.«164958_j45200235823717_1_alg».proof.Proof.KernelFold

noncomputable section

namespace Cert.KernelIdeal.Result

open Cert.KernelIdeal Cert.KernelIdeal.Gen Cert.GraphConv
open Idealize.ShloMosaic Idealize.ShloMosaic.TcCoe Idealize.SL.Sem

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v57)
          = net (n := 100000) (Cert.ReferenceIdeal.Maps.agg (m ((c.tc : Thread nD τ).loc main_arg1))) (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Cert.KernelIdeal.Fold.result m ρ c), (h c).2⟩) (run (F := Ideal) m ρ)

end Cert.KernelIdeal.Result

end
-- ==== Proof.RefOps.lean ====
/-
  The reference program's @main as a line of 117 host operations, whole and cut into five stages:
    1. the graph (sources, targets, inverse square roots of the in-degrees, edge weights) and the first product;
    2. the first layer (aggregation, bias, maximum with zero);
    3. the second product, and the edge weights once more;
    4. the second layer;
    5. the head (product, bias, log-softmax).
  In the stages an outlined function's operations (the two rectifiers, the log-softmax) are written at their buffers
  directly: moving a value to a buffer's own tensor type and back is the identity, so they are the same operations.
  The fold of the operations' results over an appended line is the fold over its second part from the fold over its
  first, so the whole line can be read stage by stage.
-/
import proofs.«164958_j45200235823717_1_alg».proof.Proof.Gen.ReferenceIdeal
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- @main's 117 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    binary main_arg0 main_arg2 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v3 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v15 (broadcastInDim S1700000 ![] bcast_S_S1700000 : (⟨S_, .i32⟩ : BufTy).Contents (Elt F) → (⟨S1700000, .i32⟩ : BufTy).Contents (Elt F)),
    binary main_v3 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v3 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v11 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v20 (broadcastInDim S1700000 ![] bcast_S_S1700000 : (⟨S_, .i32⟩ : BufTy).Contents (Elt F) → (⟨S1700000, .i32⟩ : BufTy).Contents (Elt F)),
    binary main_v6 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v6 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v6 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v11 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v12 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg4 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v11 main_v51 main_v52 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_9 (constantI S_ 32 0#32),
    unary main_c_9 main_v53 (broadcastInDim S1700000 ![] bcast_S_S1700000 : (⟨S_, .i32⟩ : BufTy).Contents (Elt F) → (⟨S1700000, .i32⟩ : BufTy).Contents (Elt F)),
    binary main_v6 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v55 (broadcastInDim S1700000 ![] bcast_S_S1700000 : (⟨S_, .i32⟩ : BufTy).Contents (Elt F) → (⟨S1700000, .i32⟩ : BufTy).Contents (Elt F)),
    binary main_v6 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v6 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v11 main_v58 main_v59 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v52 main_v59 main_v60 (mulf : (⟨S1700000, .f32⟩ : BufTy).Contents (Elt F) → (⟨S1700000, .f32⟩ : BufTy).Contents (Elt F) → (⟨S1700000, .f32⟩ : BufTy).Contents (Elt F)),
    nullary main_c_11 (constantI S_ 32 0#32),
    unary main_c_11 main_v61 (broadcastInDim S1700000 ![] bcast_S_S1700000 : (⟨S_, .i32⟩ : BufTy).Contents (Elt F) → (⟨S1700000, .i32⟩ : BufTy).Contents (Elt F)),
    binary main_v3 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v63 (broadcastInDim S1700000 ![] bcast_S_S1700000 : (⟨S_, .i32⟩ : BufTy).Contents (Elt F) → (⟨S1700000, .i32⟩ : BufTy).Contents (Elt F)),
    binary main_v3 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v3 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v45 main_v66 main_v67 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v60 main_v68 (broadcastInDim S1700000x1 ![0] bcast_S1700000_S1700000x1_0 : (⟨S1700000, .f32⟩ : BufTy).Contents (Elt F) → (⟨S1700000x1, .f32⟩ : BufTy).Contents (Elt F)),
    unary main_v68 main_v69 (broadcastInDim S1700000x128 ![0, 1] bcast_S1700000x1_S1700000x128_0_1 : (⟨S1700000x1, .f32⟩ : BufTy).Contents (Elt F) → (⟨S1700000x128, .f32⟩ : BufTy).Contents (Elt F)),
    binary main_v67 main_v69 main_v70 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v71 (broadcastInDim S100000x128 ![] bcast_S_S100000x128 : (⟨S_, .f32⟩ : BufTy).Contents (Elt F) → (⟨S100000x128, .f32⟩ : BufTy).Contents (Elt F)),
    unary main_v6 main_v72 (broadcastInDim S1700000x1 ![0] bcast_S1700000_S1700000x1_0 : (⟨S1700000, .i32⟩ : BufTy).Contents (Elt F) → (⟨S1700000x1, .i32⟩ : BufTy).Contents (Elt F)),
    ternary main_v71 main_v72 main_v70 main_v73 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v76) (TRef.of (T := ⟨S100000x128, .f32⟩) main_call1_v0) (TRef.of (T := ⟨S100000x128, .f32⟩) main_v77) maximumf,
    binary main_v77 main_arg6 main_v78 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg7 main_v79 (broadcastInDim S1x40 ![1] bcast_S40_S1x40_1 : (⟨S40, .f32⟩ : BufTy).Contents (Elt F) → (⟨S1x40, .f32⟩ : BufTy).Contents (Elt F)),
    unary main_v79 main_v80 (broadcastInDim S100000x40 ![0, 1] bcast_S1x40_S100000x40_0_1 : (⟨S1x40, .f32⟩ : BufTy).Contents (Elt F) → (⟨S100000x40, .f32⟩ : BufTy).Contents (Elt F)),
    binary main_v78 main_v80 main_v81 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v81) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v81) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v82) subf ]

abbrev ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    binary main_arg0 main_arg2 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v3 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v15 (broadcastInDim S1700000 ![] bcast_S_S1700000 : (⟨S_, .i32⟩ : BufTy).Contents (Elt F) → (⟨S1700000, .i32⟩ : BufTy).Contents (Elt F)),
    binary main_v3 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v3 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v11 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v20 (broadcastInDim S1700000 ![] bcast_S_S1700000 : (⟨S_, .i32⟩ : BufTy).Contents (Elt F) → (⟨S1700000, .i32⟩ : BufTy).Contents (Elt F)),
    binary main_v6 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v6 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v6 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v11 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)) ]

abbrev ops2 : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v12 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    nullary main_call0_cst (constant S_ .f32 0x00000000#32),
    unary main_call0_cst main_call0_v0 ((broadcastInDim S100000x128 ![] bcast_S_S100000x128) : (⟨S_, .f32⟩ : BufTy).Contents (Elt F) → (⟨S100000x128, .f32⟩ : BufTy).Contents (Elt F)),
    binary main_v43 main_call0_v0 main_v44 (maximumf : (⟨S100000x128, .f32⟩ : BufTy).Contents (Elt F) → (⟨S100000x128, .f32⟩ : BufTy).Contents (Elt F) → (⟨S100000x128, .f32⟩ : BufTy).Contents (Elt F)) ]

abbrev ops3 : List (HloOp τ sig (Elt F)) :=
  [ binary main_v44 main_arg4 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v11 main_v51 main_v52 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_9 (constantI S_ 32 0#32),
    unary main_c_9 main_v53 (broadcastInDim S1700000 ![] bcast_S_S1700000 : (⟨S_, .i32⟩ : BufTy).Contents (Elt F) → (⟨S1700000, .i32⟩ : BufTy).Contents (Elt F)),
    binary main_v6 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v55 (broadcastInDim S1700000 ![] bcast_S_S1700000 : (⟨S_, .i32⟩ : BufTy).Contents (Elt F) → (⟨S1700000, .i32⟩ : BufTy).Contents (Elt F)),
    binary main_v6 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v6 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v11 main_v58 main_v59 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v52 main_v59 main_v60 (mulf : (⟨S1700000, .f32⟩ : BufTy).Contents (Elt F) → (⟨S1700000, .f32⟩ : BufTy).Contents (Elt F) → (⟨S1700000, .f32⟩ : BufTy).Contents (Elt F)) ]

abbrev ops4 : List (HloOp τ sig (Elt F)) :=
  [ nullary main_c_11 (constantI S_ 32 0#32),
    unary main_c_11 main_v61 (broadcastInDim S1700000 ![] bcast_S_S1700000 : (⟨S_, .i32⟩ : BufTy).Contents (Elt F) → (⟨S1700000, .i32⟩ : BufTy).Contents (Elt F)),
    binary main_v3 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v63 (broadcastInDim S1700000 ![] bcast_S_S1700000 : (⟨S_, .i32⟩ : BufTy).Contents (Elt F) → (⟨S1700000, .i32⟩ : BufTy).Contents (Elt F)),
    binary main_v3 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v3 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v45 main_v66 main_v67 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v60 main_v68 (broadcastInDim S1700000x1 ![0] bcast_S1700000_S1700000x1_0 : (⟨S1700000, .f32⟩ : BufTy).Contents (Elt F) → (⟨S1700000x1, .f32⟩ : BufTy).Contents (Elt F)),
    unary main_v68 main_v69 (broadcastInDim S1700000x128 ![0, 1] bcast_S1700000x1_S1700000x128_0_1 : (⟨S1700000x1, .f32⟩ : BufTy).Contents (Elt F) → (⟨S1700000x128, .f32⟩ : BufTy).Contents (Elt F)),
    binary main_v67 main_v69 main_v70 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v71 (broadcastInDim S100000x128 ![] bcast_S_S100000x128 : (⟨S_, .f32⟩ : BufTy).Contents (Elt F) → (⟨S100000x128, .f32⟩ : BufTy).Contents (Elt F)),
    unary main_v6 main_v72 (broadcastInDim S1700000x1 ![0] bcast_S1700000_S1700000x1_0 : (⟨S1700000, .i32⟩ : BufTy).Contents (Elt F) → (⟨S1700000x1, .i32⟩ : BufTy).Contents (Elt F)),
    ternary main_v71 main_v72 main_v70 main_v73 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 ((broadcastInDim S100000x128 ![] bcast_S_S100000x128) : (⟨S_, .f32⟩ : BufTy).Contents (Elt F) → (⟨S100000x128, .f32⟩ : BufTy).Contents (Elt F)),
    binary main_v76 main_call1_v0 main_v77 (maximumf : (⟨S100000x128, .f32⟩ : BufTy).Contents (Elt F) → (⟨S100000x128, .f32⟩ : BufTy).Contents (Elt F) → (⟨S100000x128, .f32⟩ : BufTy).Contents (Elt F)) ]

abbrev ops5 : List (HloOp τ sig (Elt F)) :=
  [ binary main_v77 main_arg6 main_v78 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg7 main_v79 (broadcastInDim S1x40 ![1] bcast_S40_S1x40_1 : (⟨S40, .f32⟩ : BufTy).Contents (Elt F) → (⟨S1x40, .f32⟩ : BufTy).Contents (Elt F)),
    unary main_v79 main_v80 (broadcastInDim S100000x40 ![0, 1] bcast_S1x40_S100000x40_0_1 : (⟨S1x40, .f32⟩ : BufTy).Contents (Elt F) → (⟨S100000x40, .f32⟩ : BufTy).Contents (Elt F)),
    binary main_v78 main_v80 main_v81 (addf : (⟨S100000x40, .f32⟩ : BufTy).Contents (Elt F) → (⟨S100000x40, .f32⟩ : BufTy).Contents (Elt F) → (⟨S100000x40, .f32⟩ : BufTy).Contents (Elt F)),
    nullary main_call2_cst (constant S_ .f32 0xFF800000#32),
    binary main_v81 main_call2_cst main_call2_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call2_cst_0 (constant S_ .f32 0xFF800000#32),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x40 ![0, 1] bcast_S100000x1_S100000x40_0_1) : (⟨S100000x1, .f32⟩ : BufTy).Contents (Elt F) → (⟨S100000x40, .f32⟩ : BufTy).Contents (Elt F)),
    binary main_v81 main_call2_v4 main_call2_v5 (subf : (⟨S100000x40, .f32⟩ : BufTy).Contents (Elt F) → (⟨S100000x40, .f32⟩ : BufTy).Contents (Elt F) → (⟨S100000x40, .f32⟩ : BufTy).Contents (Elt F)),
    unary main_call2_v5 main_call2_v6 (Host.exp : (⟨S100000x40, .f32⟩ : BufTy).Contents (Elt F) → (⟨S100000x40, .f32⟩ : BufTy).Contents (Elt F)),
    nullary main_call2_cst_1 (constant S_ .f32 0x00000000#32),
    binary main_call2_v6 main_call2_cst_1 main_call2_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 ((broadcastInDim S100000x40 ![0, 1] bcast_S100000x1_S100000x40_0_1) : (⟨S100000x1, .f32⟩ : BufTy).Contents (Elt F) → (⟨S100000x40, .f32⟩ : BufTy).Contents (Elt F)),
    binary main_call2_v5 main_call2_v10 main_v82 (subf : (⟨S100000x40, .f32⟩ : BufTy).Contents (Elt F) → (⟨S100000x40, .f32⟩ : BufTy).Contents (Elt F) → (⟨S100000x40, .f32⟩ : BufTy).Contents (Elt F)) ]

/-! The three stages that hold an outlined function's operations, as the program prints them. -/

abbrev ops2T : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v12 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf ]

abbrev ops4T : List (HloOp τ sig (Elt F)) :=
  [ nullary main_c_11 (constantI S_ 32 0#32),
    unary main_c_11 main_v61 (broadcastInDim S1700000 ![] bcast_S_S1700000 : (⟨S_, .i32⟩ : BufTy).Contents (Elt F) → (⟨S1700000, .i32⟩ : BufTy).Contents (Elt F)),
    binary main_v3 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v63 (broadcastInDim S1700000 ![] bcast_S_S1700000 : (⟨S_, .i32⟩ : BufTy).Contents (Elt F) → (⟨S1700000, .i32⟩ : BufTy).Contents (Elt F)),
    binary main_v3 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v3 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v45 main_v66 main_v67 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v60 main_v68 (broadcastInDim S1700000x1 ![0] bcast_S1700000_S1700000x1_0 : (⟨S1700000, .f32⟩ : BufTy).Contents (Elt F) → (⟨S1700000x1, .f32⟩ : BufTy).Contents (Elt F)),
    unary main_v68 main_v69 (broadcastInDim S1700000x128 ![0, 1] bcast_S1700000x1_S1700000x128_0_1 : (⟨S1700000x1, .f32⟩ : BufTy).Contents (Elt F) → (⟨S1700000x128, .f32⟩ : BufTy).Contents (Elt F)),
    binary main_v67 main_v69 main_v70 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v71 (broadcastInDim S100000x128 ![] bcast_S_S100000x128 : (⟨S_, .f32⟩ : BufTy).Contents (Elt F) → (⟨S100000x128, .f32⟩ : BufTy).Contents (Elt F)),
    unary main_v6 main_v72 (broadcastInDim S1700000x1 ![0] bcast_S1700000_S1700000x1_0 : (⟨S1700000, .i32⟩ : BufTy).Contents (Elt F) → (⟨S1700000x1, .i32⟩ : BufTy).Contents (Elt F)),
    ternary main_v71 main_v72 main_v70 main_v73 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v76) (TRef.of (T := ⟨S100000x128, .f32⟩) main_call1_v0) (TRef.of (T := ⟨S100000x128, .f32⟩) main_v77) maximumf ]

abbrev ops5T : List (HloOp τ sig (Elt F)) :=
  [ binary main_v77 main_arg6 main_v78 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg7 main_v79 (broadcastInDim S1x40 ![1] bcast_S40_S1x40_1 : (⟨S40, .f32⟩ : BufTy).Contents (Elt F) → (⟨S1x40, .f32⟩ : BufTy).Contents (Elt F)),
    unary main_v79 main_v80 (broadcastInDim S100000x40 ![0, 1] bcast_S1x40_S100000x40_0_1 : (⟨S1x40, .f32⟩ : BufTy).Contents (Elt F) → (⟨S100000x40, .f32⟩ : BufTy).Contents (Elt F)),
    binary main_v78 main_v80 main_v81 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v81) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v81) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v82) subf ]

set_option maxRecDepth 8192 in
theorem ops_splitT : (ops : List (HloOp τ sig (Elt F))) = ops1 ++ (ops2T ++ (ops3 ++ (ops4T ++ ops5T))) := rfl

/-- Stage 2's operations as the program prints them are the same operations written at their buffers directly:
    moving a value to a buffer's own tensor type and back is the identity. -/
theorem ops2_eq : (ops2T : List (HloOp τ sig (Elt F))) = ops2 := by
  dsimp only [ops2T, ops2]
  iterate 22 (refine congrArg₂ List.cons (by rfl) ?_)
  rfl

/-- Stage 4's operations as the program prints them are the same operations written at their buffers directly:
    moving a value to a buffer's own tensor type and back is the identity. -/
theorem ops4_eq : (ops4T : List (HloOp τ sig (Elt F))) = ops4 := by
  dsimp only [ops4T, ops4]
  iterate 22 (refine congrArg₂ List.cons (by rfl) ?_)
  rfl

/-- A two-operand operation of an outlined function, at typed references, is the same operation at their buffers:
    the values move to the buffers' own tensor types and back along equations that hold by computation. -/
theorem binary_typed {Val : EltTy → Type} {Ta Tb Ty : BufTy} (a : TRef sig Ta) (b : TRef sig Tb) (y : TRef sig Ty)
    (f : Ta.Contents Val → Tb.Contents Val → Ty.Contents Val)
    (g : a.ref.ty.Contents Val → b.ref.ty.Contents Val → y.ref.ty.Contents Val) (hfg : HEq f g) :
    TRef.binary (τ := τ) a b y f = StableHlo.binary a.ref b.ref y.ref g a.dev b.dev y.dev := by
  obtain ⟨ra, rfl, _, _⟩ := a
  obtain ⟨rb, rfl, _, _⟩ := b
  obtain ⟨ry, rfl, _, _⟩ := y
  cases hfg
  rfl

/-- Stage 5's operations as the program prints them are the same operations written at their buffers directly:
    moving a value to a buffer's own tensor type and back is the identity.  (The two reductions go through
    `binary_typed`, which never looks inside the operation's function.) -/
theorem ops5_eq : (ops5T : List (HloOp τ sig (Elt F))) = ops5 := by
  dsimp only [ops5T, ops5]
  iterate 5 (refine congrArg₂ List.cons (by rfl) ?_)
  refine congrArg₂ List.cons (binary_typed _ _ _ _ _ HEq.rfl) ?_
  iterate 8 (refine congrArg₂ List.cons (by rfl) ?_)
  refine congrArg₂ List.cons (binary_typed _ _ _ _ _ HEq.rfl) ?_
  iterate 4 (refine congrArg₂ List.cons (by rfl) ?_)
  rfl

theorem ops_split : (ops : List (HloOp τ sig (Elt F))) = ops1 ++ (ops2 ++ (ops3 ++ (ops4 ++ ops5))) := by
  rw [ops_splitT, ops2_eq, ops4_eq, ops5_eq]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold over an appended line is the fold over its second part from the fold over its first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.ReferenceIdeal.Staged

end
-- ==== Proof.RefStage1.lean ====
/-
  Stage 1 of the reference's line, from any valuation of the buffers: the graph — sources and targets with the
  self-loops, the inverse square roots of the in-degrees, the edge weights — and the first product x · W1.
-/
import proofs.«164958_j45200235823717_1_alg».proof.Proof.RefOps
import proofs.«164958_j45200235823717_1_alg».proof.Proof.HostMaps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
variable (W : Valuation τ sig (Elt Ideal))

theorem s1_v3 : after ops1 W (Proc.devRef .tc main_v3)
    = src (W (Proc.devRef .tc main_arg1)) := by
  dsimp only [ops1]; after_results_simp <;> rfl
theorem s1_v6 : after ops1 W (Proc.devRef .tc main_v6)
    = dst (W (Proc.devRef .tc main_arg1)) := by
  dsimp only [ops1]; after_results_simp <;> rfl
theorem s1_v11 : after ops1 W (Proc.devRef .tc main_v11)
    = dinv (dst (W (Proc.devRef .tc main_arg1))) := by
  dsimp only [ops1]; after_results_simp <;> rfl
theorem s1_v27 : after ops1 W (Proc.devRef .tc main_v27)
    = weight (src (W (Proc.devRef .tc main_arg1))) (dst (W (Proc.devRef .tc main_arg1))) := by
  dsimp only [ops1]; after_results_simp <;> rfl
theorem s1_v12 : after ops1 W (Proc.devRef .tc main_v12)
    = dot128 (W (Proc.devRef .tc main_arg0)) (W (Proc.devRef .tc main_arg2)) := by
  dsimp only [ops1]; after_results_simp <;> rfl

/-! ## What the stage does not write -/

theorem k1_arg0 : after ops1 W (Proc.devRef .tc main_arg0) = W (Proc.devRef .tc main_arg0) := by
  dsimp only [ops1]; after_results_simp
theorem k1_arg1 : after ops1 W (Proc.devRef .tc main_arg1) = W (Proc.devRef .tc main_arg1) := by
  dsimp only [ops1]; after_results_simp
theorem k1_arg2 : after ops1 W (Proc.devRef .tc main_arg2) = W (Proc.devRef .tc main_arg2) := by
  dsimp only [ops1]; after_results_simp
theorem k1_arg3 : after ops1 W (Proc.devRef .tc main_arg3) = W (Proc.devRef .tc main_arg3) := by
  dsimp only [ops1]; after_results_simp
theorem k1_arg4 : after ops1 W (Proc.devRef .tc main_arg4) = W (Proc.devRef .tc main_arg4) := by
  dsimp only [ops1]; after_results_simp
theorem k1_arg5 : after ops1 W (Proc.devRef .tc main_arg5) = W (Proc.devRef .tc main_arg5) := by
  dsimp only [ops1]; after_results_simp
theorem k1_arg6 : after ops1 W (Proc.devRef .tc main_arg6) = W (Proc.devRef .tc main_arg6) := by
  dsimp only [ops1]; after_results_simp
theorem k1_arg7 : after ops1 W (Proc.devRef .tc main_arg7) = W (Proc.devRef .tc main_arg7) := by
  dsimp only [ops1]; after_results_simp

end Cert.ReferenceIdeal.Staged

end
-- ==== Proof.RefStage2.lean ====
/-
  Stage 2 of the reference's line, from any valuation of the buffers: the first layer — the aggregation of the
  first product over the graph, the bias, the maximum with zero.
-/
import proofs.«164958_j45200235823717_1_alg».proof.Proof.RefOps
import proofs.«164958_j45200235823717_1_alg».proof.Proof.HostMaps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
variable (W : Valuation τ sig (Elt Ideal))

theorem s2_v44 : after ops2 W (Proc.devRef .tc main_v44)
    = biasMax (aggOf (W (Proc.devRef .tc main_v3)) (W (Proc.devRef .tc main_v6)) (W (Proc.devRef .tc main_v27)) (W (Proc.devRef .tc main_v12))) (W (Proc.devRef .tc main_arg3)) := by
  dsimp only [ops2]; after_results_simp <;> rfl

/-! ## What the stage does not write -/

theorem k2_v3 : after ops2 W (Proc.devRef .tc main_v3) = W (Proc.devRef .tc main_v3) := by
  dsimp only [ops2]; after_results_simp
theorem k2_v6 : after ops2 W (Proc.devRef .tc main_v6) = W (Proc.devRef .tc main_v6) := by
  dsimp only [ops2]; after_results_simp
theorem k2_v11 : after ops2 W (Proc.devRef .tc main_v11) = W (Proc.devRef .tc main_v11) := by
  dsimp only [ops2]; after_results_simp
theorem k2_arg0 : after ops2 W (Proc.devRef .tc main_arg0) = W (Proc.devRef .tc main_arg0) := by
  dsimp only [ops2]; after_results_simp
theorem k2_arg1 : after ops2 W (Proc.devRef .tc main_arg1) = W (Proc.devRef .tc main_arg1) := by
  dsimp only [ops2]; after_results_simp
theorem k2_arg2 : after ops2 W (Proc.devRef .tc main_arg2) = W (Proc.devRef .tc main_arg2) := by
  dsimp only [ops2]; after_results_simp
theorem k2_arg3 : after ops2 W (Proc.devRef .tc main_arg3) = W (Proc.devRef .tc main_arg3) := by
  dsimp only [ops2]; after_results_simp
theorem k2_arg4 : after ops2 W (Proc.devRef .tc main_arg4) = W (Proc.devRef .tc main_arg4) := by
  dsimp only [ops2]; after_results_simp
theorem k2_arg5 : after ops2 W (Proc.devRef .tc main_arg5) = W (Proc.devRef .tc main_arg5) := by
  dsimp only [ops2]; after_results_simp
theorem k2_arg6 : after ops2 W (Proc.devRef .tc main_arg6) = W (Proc.devRef .tc main_arg6) := by
  dsimp only [ops2]; after_results_simp
theorem k2_arg7 : after ops2 W (Proc.devRef .tc main_arg7) = W (Proc.devRef .tc main_arg7) := by
  dsimp only [ops2]; after_results_simp

end Cert.ReferenceIdeal.Staged

end
-- ==== Proof.RefStage3.lean ====
/-
  Stage 3 of the reference's line, from any valuation of the buffers: the second product, and the edge weights
  computed once more from the same per-node numbers, sources and targets.
-/
import proofs.«164958_j45200235823717_1_alg».proof.Proof.RefOps
import proofs.«164958_j45200235823717_1_alg».proof.Proof.HostMaps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
variable (W : Valuation τ sig (Elt Ideal))

theorem s3_v45 : after ops3 W (Proc.devRef .tc main_v45)
    = dot128 (W (Proc.devRef .tc main_v44)) (W (Proc.devRef .tc main_arg4)) := by
  dsimp only [ops3]; after_results_simp <;> rfl
theorem s3_v60 : after ops3 W (Proc.devRef .tc main_v60)
    = weightOf (W (Proc.devRef .tc main_v11)) (W (Proc.devRef .tc main_v3)) (W (Proc.devRef .tc main_v6)) := by
  dsimp only [ops3]; after_results_simp <;> rfl

/-! ## What the stage does not write -/

theorem k3_v3 : after ops3 W (Proc.devRef .tc main_v3) = W (Proc.devRef .tc main_v3) := by
  dsimp only [ops3]; after_results_simp
theorem k3_v6 : after ops3 W (Proc.devRef .tc main_v6) = W (Proc.devRef .tc main_v6) := by
  dsimp only [ops3]; after_results_simp
theorem k3_arg0 : after ops3 W (Proc.devRef .tc main_arg0) = W (Proc.devRef .tc main_arg0) := by
  dsimp only [ops3]; after_results_simp
theorem k3_arg1 : after ops3 W (Proc.devRef .tc main_arg1) = W (Proc.devRef .tc main_arg1) := by
  dsimp only [ops3]; after_results_simp
theorem k3_arg2 : after ops3 W (Proc.devRef .tc main_arg2) = W (Proc.devRef .tc main_arg2) := by
  dsimp only [ops3]; after_results_simp
theorem k3_arg3 : after ops3 W (Proc.devRef .tc main_arg3) = W (Proc.devRef .tc main_arg3) := by
  dsimp only [ops3]; after_results_simp
theorem k3_arg4 : after ops3 W (Proc.devRef .tc main_arg4) = W (Proc.devRef .tc main_arg4) := by
  dsimp only [ops3]; after_results_simp
theorem k3_arg5 : after ops3 W (Proc.devRef .tc main_arg5) = W (Proc.devRef .tc main_arg5) := by
  dsimp only [ops3]; after_results_simp
theorem k3_arg6 : after ops3 W (Proc.devRef .tc main_arg6) = W (Proc.devRef .tc main_arg6) := by
  dsimp only [ops3]; after_results_simp
theorem k3_arg7 : after ops3 W (Proc.devRef .tc main_arg7) = W (Proc.devRef .tc main_arg7) := by
  dsimp only [ops3]; after_results_simp

end Cert.ReferenceIdeal.Staged

end
-- ==== Proof.RefStage4.lean ====
/-
  Stage 4 of the reference's line, from any valuation of the buffers: the second layer.
-/
import proofs.«164958_j45200235823717_1_alg».proof.Proof.RefOps
import proofs.«164958_j45200235823717_1_alg».proof.Proof.HostMaps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
variable (W : Valuation τ sig (Elt Ideal))

theorem s4_v77 : after ops4 W (Proc.devRef .tc main_v77)
    = biasMax (aggOf (W (Proc.devRef .tc main_v3)) (W (Proc.devRef .tc main_v6)) (W (Proc.devRef .tc main_v60)) (W (Proc.devRef .tc main_v45))) (W (Proc.devRef .tc main_arg5)) := by
  dsimp only [ops4]; after_results_simp <;> rfl

/-! ## What the stage does not write -/

theorem k4_arg0 : after ops4 W (Proc.devRef .tc main_arg0) = W (Proc.devRef .tc main_arg0) := by
  dsimp only [ops4]; after_results_simp
theorem k4_arg1 : after ops4 W (Proc.devRef .tc main_arg1) = W (Proc.devRef .tc main_arg1) := by
  dsimp only [ops4]; after_results_simp
theorem k4_arg2 : after ops4 W (Proc.devRef .tc main_arg2) = W (Proc.devRef .tc main_arg2) := by
  dsimp only [ops4]; after_results_simp
theorem k4_arg3 : after ops4 W (Proc.devRef .tc main_arg3) = W (Proc.devRef .tc main_arg3) := by
  dsimp only [ops4]; after_results_simp
theorem k4_arg4 : after ops4 W (Proc.devRef .tc main_arg4) = W (Proc.devRef .tc main_arg4) := by
  dsimp only [ops4]; after_results_simp
theorem k4_arg5 : after ops4 W (Proc.devRef .tc main_arg5) = W (Proc.devRef .tc main_arg5) := by
  dsimp only [ops4]; after_results_simp
theorem k4_arg6 : after ops4 W (Proc.devRef .tc main_arg6) = W (Proc.devRef .tc main_arg6) := by
  dsimp only [ops4]; after_results_simp
theorem k4_arg7 : after ops4 W (Proc.devRef .tc main_arg7) = W (Proc.devRef .tc main_arg7) := by
  dsimp only [ops4]; after_results_simp

end Cert.ReferenceIdeal.Staged

end
-- ==== Proof.RefStage5.lean ====
/-
  Stage 5 of the reference's line, from any valuation of the buffers: the head — product with the [128, 40]
  weights, bias, log-softmax.
-/
import proofs.«164958_j45200235823717_1_alg».proof.Proof.RefOps
import proofs.«164958_j45200235823717_1_alg».proof.Proof.HostMaps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
variable (W : Valuation τ sig (Elt Ideal))

theorem s5_v82 : after ops5 W (Proc.devRef .tc main_v82)
    = lsmH (logitsH (W (Proc.devRef .tc main_v77)) (W (Proc.devRef .tc main_arg6)) (W (Proc.devRef .tc main_arg7))) := by
  dsimp only [ops5]; after_results_simp <;> rfl

/-! ## What the stage does not write -/

theorem k5_arg0 : after ops5 W (Proc.devRef .tc main_arg0) = W (Proc.devRef .tc main_arg0) := by
  dsimp only [ops5]; after_results_simp
theorem k5_arg1 : after ops5 W (Proc.devRef .tc main_arg1) = W (Proc.devRef .tc main_arg1) := by
  dsimp only [ops5]; after_results_simp
theorem k5_arg2 : after ops5 W (Proc.devRef .tc main_arg2) = W (Proc.devRef .tc main_arg2) := by
  dsimp only [ops5]; after_results_simp
theorem k5_arg3 : after ops5 W (Proc.devRef .tc main_arg3) = W (Proc.devRef .tc main_arg3) := by
  dsimp only [ops5]; after_results_simp
theorem k5_arg4 : after ops5 W (Proc.devRef .tc main_arg4) = W (Proc.devRef .tc main_arg4) := by
  dsimp only [ops5]; after_results_simp
theorem k5_arg5 : after ops5 W (Proc.devRef .tc main_arg5) = W (Proc.devRef .tc main_arg5) := by
  dsimp only [ops5]; after_results_simp
theorem k5_arg6 : after ops5 W (Proc.devRef .tc main_arg6) = W (Proc.devRef .tc main_arg6) := by
  dsimp only [ops5]; after_results_simp
theorem k5_arg7 : after ops5 W (Proc.devRef .tc main_arg7) = W (Proc.devRef .tc main_arg7) := by
  dsimp only [ops5]; after_results_simp

end Cert.ReferenceIdeal.Staged

end
-- ==== Proof.RefRun.lean ====
/-
  The reference program's run.

  Every weakly fair execution of @main terminates with each buffer at the fold of the 117 operations' results over
  its launch contents.  Read stage by stage — a stage leaves what it does not write as it found it, which carries the
  graph and the later weights and biases across the stages — the result buffer holds the reference computation
  `netH` over the graph's aggregation, of the argument arrays, and no argument is written.
-/
import proofs.«164958_j45200235823717_1_alg».proof.Proof.RefStage1
import proofs.«164958_j45200235823717_1_alg».proof.Proof.RefStage2
import proofs.«164958_j45200235823717_1_alg».proof.Proof.RefStage3
import proofs.«164958_j45200235823717_1_alg».proof.Proof.RefStage4
import proofs.«164958_j45200235823717_1_alg».proof.Proof.RefStage5
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Maps
section Composed

variable (W : Valuation τ sig (Elt Ideal))

/-- After the whole line the result buffer holds the reference computation over the graph's aggregation. -/
theorem result : after ops W (Proc.devRef .tc main_v82)
    = netH (agg (W (Proc.devRef .tc main_arg1))) (W (Proc.devRef .tc main_arg0)) (W (Proc.devRef .tc main_arg2)) (W (Proc.devRef .tc main_arg3)) (W (Proc.devRef .tc main_arg4))
        (W (Proc.devRef .tc main_arg5)) (W (Proc.devRef .tc main_arg6)) (W (Proc.devRef .tc main_arg7)) := by
  rw [ops_split, after_append, after_append, after_append, after_append]
  rw [s5_v82, k4_arg6, k4_arg7, s4_v77]
  rw [k3_v3, k3_v6, s3_v60, s3_v45, k3_arg5, k3_arg6, k3_arg7]
  rw [k2_v3, k2_v6, k2_v11, s2_v44, k2_arg4, k2_arg5, k2_arg6, k2_arg7]
  rw [s1_v3, s1_v6, s1_v11, s1_v27, s1_v12, k1_arg3, k1_arg4, k1_arg5, k1_arg6, k1_arg7]
  rfl

theorem through_arg0 : after ops W (Proc.devRef .tc main_arg0) = W (Proc.devRef .tc main_arg0) := by
  rw [ops_split, after_append, after_append, after_append, after_append, k5_arg0, k4_arg0, k3_arg0, k2_arg0, k1_arg0]
theorem through_arg1 : after ops W (Proc.devRef .tc main_arg1) = W (Proc.devRef .tc main_arg1) := by
  rw [ops_split, after_append, after_append, after_append, after_append, k5_arg1, k4_arg1, k3_arg1, k2_arg1, k1_arg1]
theorem through_arg2 : after ops W (Proc.devRef .tc main_arg2) = W (Proc.devRef .tc main_arg2) := by
  rw [ops_split, after_append, after_append, after_append, after_append, k5_arg2, k4_arg2, k3_arg2, k2_arg2, k1_arg2]
theorem through_arg3 : after ops W (Proc.devRef .tc main_arg3) = W (Proc.devRef .tc main_arg3) := by
  rw [ops_split, after_append, after_append, after_append, after_append, k5_arg3, k4_arg3, k3_arg3, k2_arg3, k1_arg3]
theorem through_arg4 : after ops W (Proc.devRef .tc main_arg4) = W (Proc.devRef .tc main_arg4) := by
  rw [ops_split, after_append, after_append, after_append, after_append, k5_arg4, k4_arg4, k3_arg4, k2_arg4, k1_arg4]
theorem through_arg5 : after ops W (Proc.devRef .tc main_arg5) = W (Proc.devRef .tc main_arg5) := by
  rw [ops_split, after_append, after_append, after_append, after_append, k5_arg5, k4_arg5, k3_arg5, k2_arg5, k1_arg5]
theorem through_arg6 : after ops W (Proc.devRef .tc main_arg6) = W (Proc.devRef .tc main_arg6) := by
  rw [ops_split, after_append, after_append, after_append, after_append, k5_arg6, k4_arg6, k3_arg6, k2_arg6, k1_arg6]
theorem through_arg7 : after ops W (Proc.devRef .tc main_arg7) = W (Proc.devRef .tc main_arg7) := by
  rw [ops_split, after_append, after_append, after_append, after_append, k5_arg7, k4_arg7, k3_arg7, k2_arg7, k1_arg7]

end Composed

/-- Every weakly fair execution of @main terminates with the result buffer at the reference computation of the
    argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82)
          = netH (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (result (launchContents m c)),
      (h c main_arg0).trans (through_arg0 (launchContents m c)),
      (h c main_arg1).trans (through_arg1 (launchContents m c)),
      (h c main_arg2).trans (through_arg2 (launchContents m c)),
      (h c main_arg3).trans (through_arg3 (launchContents m c)),
      (h c main_arg4).trans (through_arg4 (launchContents m c)),
      (h c main_arg5).trans (through_arg5 (launchContents m c)),
      (h c main_arg6).trans (through_arg6 (launchContents m c)),
      (h c main_arg7).trans (through_arg7 (launchContents m c))⟩)
    (run_seq scopedRefs_eq scopedSems_eq defs main (fun _ => ops) main_eq (fun _ => ops_sub) m ρ)

end Cert.ReferenceIdeal.Staged

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«164958_j45200235823717_1_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.HostDense.lean ====
/-
  The host's contraction of the inner axis of [100000, 128] × [128, b] is the matrix product: at (p, q) the sum over
  j of x(p, j) · w(j, q).  With a bias broadcast to a row and down the rows and added, it is the affine map.
-/
import proofs.«164958_j45200235823717_1_alg».proof.Proof.HostMaps
import proofs.«164958_j45200235823717_1_alg».proof.Proof.LibLayerLaws
import proofs.«164958_j45200235823717_1_alg».proof.Proof.LibLayerHost
import Idealize.ShloMosaic.PureOps.Ideal.Laws

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

theorem dot128_eq (x : F32 S100000x128) (w : F32 S128x128) : dot128 x w = mm x w := by
  funext j
  obtain ⟨p, q, rfl⟩ : ∃ (p : Fin 100000) (q : Fin 128), j = ix2 p q := ⟨j 0, j 1, eq_ix2 j⟩
  rw [mm_apply]
  refine (Ideal.dotGeneral_apply dot_S100000x128_S128x128_S100000x128_1_0_0_1_n_n none _ x w (ix2 p q)).trans ?_
  exact Cert.LayerLaws.sum_inner dot_S100000x128_S128x128_S100000x128_1_0_0_1_n_n rfl rfl
    (fun _ _ => rfl) (fun _ _ => rfl) (fun _ _ => rfl) (fun _ _ => rfl) x w p q

theorem logitsH_eq (h : F32 S100000x128) (w : F32 S128x40) (b : F32 S40) : logitsH h w b = affine h w b := by
  funext j
  obtain ⟨p, q, rfl⟩ : ∃ (p : Fin 100000) (q : Fin 40), j = ix2 p q := ⟨j 0, j 1, eq_ix2 j⟩
  rw [affine_apply]
  show Host.dotGeneral dot_S100000x128_S128x40_S100000x40_1_0_0_1_n_n none h w (ix2 p q)
    + broadcastInDim S100000x40 ![0, 1] bcast_S1x40_S100000x40_0_1 (broadcastInDim S1x40 ![1] bcast_S40_S1x40_1 b) (ix2 p q) = _
  rw [Cert.LayerLaws.bcast_rows_apply, Cert.LayerLaws.bcast_row_apply]
  refine congrArg (· + _) ?_
  refine (Ideal.dotGeneral_apply dot_S100000x128_S128x40_S100000x40_1_0_0_1_n_n none _ h w (ix2 p q)).trans ?_
  exact Cert.LayerLaws.sum_inner dot_S100000x128_S128x40_S100000x40_1_0_0_1_n_n rfl rfl
    (fun _ _ => rfl) (fun _ _ => rfl) (fun _ _ => rfl) (fun _ _ => rfl) h w p q

end Cert.ReferenceIdeal.Maps

end
-- ==== Proof.LibHostRows.lean ====
/-
  Two host operations read at an index, on the extended reals.

  • A rank-0 array broadcast to any shape reads, at every index, its one entry.
  • The host's float sum of an [a, b] array over axis 1, read at row p, is the initial value plus the sum over the row.
  • The entry-by-entry operations (maximum, difference, the host's exponential and logarithm) read at an index.
-/
import Idealize.ShloMosaic.Lib.Pipeline.Value
import Idealize.ShloMosaic.Lib.ValueIdx
import Idealize.ShloMosaic.PureOps.Ideal.Laws
import proofs.«164958_j45200235823717_1_alg».proof.Proof.LibRowLayout

noncomputable section

open scoped BigOperators

namespace Cert.HostRows

open Idealize.ShloMosaic Idealize.ShloMosaic.ValueIdx

/-- The one index of a rank-0 array. -/
def unit0 : (⟨0, ![]⟩ : Shape).Idx := fun a => a.elim0

/-- A rank-0 array broadcast to shape `t` reads its one entry at every index. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x unit0 :=
  broadcastInDim_apply ![] h x j unit0 fun a => a.elim0

/-- The host's float sum of an [a, b] array over axis 1, at row p: the initial value plus the sum over the row. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ j : Fin b, x (ix2 p j) := by
  refine (Ideal.hostReduceAdd_single h' h x init (ix1 p)).trans ?_
  exact congrArg (init + ·) (Finset.sum_congr rfl fun k _ => congrArg x (Cert.RowLayout.lift_row h p k))

/-! ## Entry-by-entry operations at an index -/

variable {s : Shape}

theorem maximumf_at (a b : FVec Ideal s .f32) (i : s.Idx) : maximumf a b i = max (a i) (b i) := rfl
theorem subf_at (a b : FVec Ideal s .f32) (i : s.Idx) : subf a b i = a i - b i := rfl
theorem hostExp_at (a : FVec Ideal s .f32) (i : s.Idx) : Host.exp a i = Ideal.exp (a i) := rfl
theorem hostLog_at (a : FVec Ideal s .f32) (i : s.Idx) : Host.log a i = Ideal.log (a i) := rfl

end Cert.HostRows

end
-- ==== Proof.HostBias.lean ====
/-
  A bias broadcast to a row and down the rows, added, then the maximum with a broadcast zero, is bias-then-maximum:
  at (p, q) the maximum of a(p, q) + b(q) and 0.
-/
import proofs.«164958_j45200235823717_1_alg».proof.Proof.HostMaps
import proofs.«164958_j45200235823717_1_alg».proof.Proof.LibLayerLaws
import proofs.«164958_j45200235823717_1_alg».proof.Proof.LibLayerHost
import proofs.«164958_j45200235823717_1_alg».proof.Proof.LibHostRows
import Idealize.ShloMosaic.PureOps.Ideal.Laws

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

theorem biasMax_eq (a : F32 S100000x128) (b : F32 S128) : biasMax a b = biasRelu a b := by
  funext j
  obtain ⟨p, q, rfl⟩ : ∃ (p : Fin 100000) (q : Fin 128), j = ix2 p q := ⟨j 0, j 1, eq_ix2 j⟩
  rw [biasRelu_apply]
  show max (a (ix2 p q) + broadcastInDim S100000x128 ![0, 1] bcast_S1x128_S100000x128_0_1 (broadcastInDim S1x128 ![1] bcast_S128_S1x128_1 b) (ix2 p q))
    (broadcastInDim S100000x128 ![] bcast_S_S100000x128 (constant (F := Ideal) S_ .f32 0x00000000#32) (ix2 p q)) = _
  rw [Cert.LayerLaws.bcast_rows_apply, Cert.LayerLaws.bcast_row_apply, Cert.HostRows.bcast_scalar_apply]
  show max _ (Ideal.ofBits .f32 0x00000000#32) = _
  rw [Ideal.ofBits_zero_f32]

end Cert.ReferenceIdeal.Maps

end
-- ==== Proof.HostRowMax.lean ====
/-
  The host's maximum of a [100000, 40] array over axis 1 from −∞, at row p, is the fold of the maximum from the
  bottom element over the row; one more maximum against a broadcast −∞ changes nothing; and the column and row
  broadcasts read the row's value back at every entry of the row.
-/
import proofs.«164958_j45200235823717_1_alg».proof.Proof.HostMaps
import proofs.«164958_j45200235823717_1_alg».proof.Proof.LibLayerLaws
import proofs.«164958_j45200235823717_1_alg».proof.Proof.LibLayerHost
import proofs.«164958_j45200235823717_1_alg».proof.Proof.LibRowLayout
import proofs.«164958_j45200235823717_1_alg».proof.Proof.LibRowOps
import proofs.«164958_j45200235823717_1_alg».proof.Proof.LibHostRows
import Idealize.ShloMosaic.PureOps.Ideal.Laws

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

/-- Removing axis 1 of [100000, 40] leaves [100000]. -/
theorem reduces40 : (⟨2, ![100000, 40]⟩ : Shape).Reduces [1] (⟨1, ![100000]⟩ : Shape) := by decide

/-- The host's maximum over axis 1 from −∞, at row p. -/
theorem hostRowMax (z : F32 S100000x40) (p : Fin 100000) :
    Host.reduce FloatOps.maximumf z (constant (F := Ideal) S_ .f32 0xFF800000#32) reducesTo_S100000x40_S100000_d1 h_S_ (ix1 p)
      = rowMax z p := by
  refine (Cert.RowLayout.hostReduce_maximumf_row (a := 100000) (b := 40) z (constant (F := Ideal) S_ .f32 0xFF800000#32)
    reducesTo_S100000x40_S100000_d1 reduces40 h_S_ p).trans ?_
  unfold rowMax
  exact congrArg (fun v => (Finset.univ : Finset (Fin 40)).fold max v fun j => z (ix2 p j)) Idealize.ShloMosaic.RowOps.ofBits_neg_inf

/-- The broadcast −∞ reads −∞, the bottom element, at every index. -/
theorem negInfRow (p : Fin 100000) :
    broadcastInDim S100000 ![] bcast_S_S100000 (constant (F := Ideal) S_ .f32 0xFF800000#32) (ix1 p) = (⊥ : EReal) :=
  (Cert.HostRows.bcast_scalar_apply (constant (F := Ideal) S_ .f32 0xFF800000#32) bcast_S_S100000 (ix1 p)).trans
    Idealize.ShloMosaic.RowOps.ofBits_neg_inf

theorem rowMaxH_apply (z : F32 S100000x40) (p : Fin 100000) (q : Fin 40) : rowMaxH z (ix2 p q) = rowMax z p := by
  unfold rowMaxH
  rw [Cert.LayerLaws.bcast_cols_apply, Cert.LayerLaws.bcast_col_apply, Cert.HostRows.maximumf_at, negInfRow, hostRowMax]
  exact max_eq_right bot_le

end Cert.ReferenceIdeal.Maps

end
-- ==== Proof.HostRowSum.lean ====
/-
  The host's float sum of a [100000, 40] array over axis 1 from 0, at row p, is the plain sum over the row.
-/
import proofs.«164958_j45200235823717_1_alg».proof.Proof.HostMaps
import proofs.«164958_j45200235823717_1_alg».proof.Proof.LibRowLayout
import proofs.«164958_j45200235823717_1_alg».proof.Proof.LibHostRows
import proofs.«164958_j45200235823717_1_alg».proof.Proof.HostRowMax
import Idealize.ShloMosaic.PureOps.Ideal.Laws

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

/-- The host's sum over axis 1 from 0, at row p. -/
theorem hostRowSum (y : F32 S100000x40) (p : Fin 100000) :
    Host.reduceAdd y (constant (F := Ideal) S_ .f32 0x00000000#32) reducesTo_S100000x40_S100000_d1 h_S_ (ix1 p)
      = ∑ k : Fin 40, y (ix2 p k) := by
  unfold Host.reduceAdd
  rw [Ideal.hostReduceAdd_def]
  refine (Cert.HostRows.hostReduceAdd_row (a := 100000) (b := 40) y _ reducesTo_S100000x40_S100000_d1 reduces40 p).trans ?_
  have h0 : constant (F := Ideal) S_ .f32 0x00000000#32 (Shape.Idx.first h_S_) = (0 : EReal) := Ideal.ofBits_zero_f32
  rw [h0, zero_add]

end Cert.ReferenceIdeal.Maps

end
-- ==== Proof.HostSoftmax.lean ====
/-
  The outlined log-softmax is the row-wise log-softmax: shift by the row maximum, exponential, row sum, logarithm
  (read back at every entry of the row through the column and row broadcasts), shift.
-/
import proofs.«164958_j45200235823717_1_alg».proof.Proof.HostMaps
import proofs.«164958_j45200235823717_1_alg».proof.Proof.LibLayerLaws
import proofs.«164958_j45200235823717_1_alg».proof.Proof.LibLayerHost
import proofs.«164958_j45200235823717_1_alg».proof.Proof.HostRowMax
import proofs.«164958_j45200235823717_1_alg».proof.Proof.HostRowSum
import Idealize.ShloMosaic.PureOps.Ideal.Laws

set_option maxRecDepth 16384

noncomputable section

open scoped BigOperators

namespace Cert.ReferenceIdeal.Maps

open Cert.ReferenceIdeal Cert.ReferenceIdeal.Gen Cert.GraphConv
open Idealize.ShloMosaic Idealize.ShloMosaic.ValueIdx

/-- The logarithm of the row sum, broadcast back across the row, at (p, q). -/
theorem logSumRow (y : F32 S100000x40) (p : Fin 100000) (q : Fin 40) :
    broadcastInDim S100000x40 ![0, 1] bcast_S100000x1_S100000x40_0_1 (Host.log (broadcastInDim S100000x1 ![0] bcast_S100000_S100000x1_0
        (Host.reduceAdd y (constant (F := Ideal) S_ .f32 0x00000000#32) reducesTo_S100000x40_S100000_d1 h_S_))) (ix2 p q)
      = Ideal.log (∑ k : Fin 40, y (ix2 p k)) := by
  rw [Cert.LayerLaws.bcast_cols_apply, Cert.HostRows.hostLog_at, Cert.LayerLaws.bcast_col_apply, hostRowSum]

theorem lsmH_eq (z : F32 S100000x40) : lsmH z = logSoftmax z := by
  funext j
  obtain ⟨p, q, rfl⟩ : ∃ (p : Fin 100000) (q : Fin 40), j = ix2 p q := ⟨j 0, j 1, eq_ix2 j⟩
  rw [logSoftmax_apply]
  unfold lsmH
  rw [Cert.HostRows.subf_at, Cert.HostRows.subf_at, logSumRow, rowMaxH_apply]
  unfold rowLogSumExp
  refine congrArg (fun s => (z (ix2 p q) - rowMax z p) - Ideal.log s) ?_
  refine Finset.sum_congr rfl fun k _ => ?_
  rw [Cert.HostRows.hostExp_at, Cert.HostRows.subf_at, rowMaxH_apply]

end Cert.ReferenceIdeal.Maps

end
-- ==== Proof.HostNet.lean ====
/-
  The reference computation is the specification's network over the same aggregation.
-/
import proofs.«164958_j45200235823717_1_alg».proof.Proof.HostDense
import proofs.«164958_j45200235823717_1_alg».proof.Proof.HostBias
import proofs.«164958_j45200235823717_1_alg».proof.Proof.HostSoftmax

noncomputable section

namespace Cert.ReferenceIdeal.Maps

open Cert.ReferenceIdeal Cert.GraphConv Idealize.ShloMosaic

/-- The reference computation is the specification's network over the same aggregation. -/
theorem netH_eq (A : F32 S100000x128 → F32 S100000x128) (x : F32 S100000x128) (W1 : F32 S128x128) (b1 : F32 S128) (W2 : F32 S128x128)
    (b2 : F32 S128) (Wfc : F32 S128x40) (bfc : F32 S40) :
    netH A x W1 b1 W2 b2 Wfc bfc = net A x W1 b1 W2 b2 Wfc bfc := by
  unfold netH net head
  rw [lsmH_eq, logitsH_eq, biasMax_eq, dot128_eq, biasMax_eq, dot128_eq]

end Cert.ReferenceIdeal.Maps

end
-- ==== Proof.lean ====
/-
  A two-layer graph convolution with a log-softmax head: the tiled kernel program against the plain reference.

  Both programs build the same graph from the edge list (sources and targets with one self-loop per node, the
  inverse square root of every in-degree, one weight per edge) and aggregate over it with the same host
  operations.  Between the aggregations the kernel program runs five kernels, each over ten tiles of 10000 rows:
  x · W1, bias-then-maximum, · W2, bias-then-maximum, and the head (· Wfc, bias, row-wise log-softmax); the
  reference does the same with whole-array operations.  On the extended reals a change of float format is the
  identity and a matrix unit started from zero is the plain contraction sum, each kernel's map is computed row by
  row, and the ten tiles cover the array: so both result arrays are ONE function of the arguments, the network
  `Cert.GraphConv.net` over the graph's aggregation.  No step moves a factor across a sum or cancels, so the
  precondition (finite inputs) is never opened.

  The three frame claims are the generated frames of the two kernel programs and the reference's run with its
  result dropped; the ideal pass rewrote nothing, so there is nothing to preserve.
-/
import proofs.«164958_j45200235823717_1_alg».proof.Defs
import proofs.«164958_j45200235823717_1_alg».proof.Proof.Gen.Kernel
import proofs.«164958_j45200235823717_1_alg».proof.Proof.Gen.Kernel.Skeleton
import proofs.«164958_j45200235823717_1_alg».proof.Proof.Gen.Kernel.Launch
import proofs.«164958_j45200235823717_1_alg».proof.Proof.Gen.Kernel.Points
import proofs.«164958_j45200235823717_1_alg».proof.Proof.Gen.Kernel.Frame
import proofs.«164958_j45200235823717_1_alg».proof.Proof.Gen.KernelIdeal
import proofs.«164958_j45200235823717_1_alg».proof.Proof.Gen.KernelIdeal.Skeleton
import proofs.«164958_j45200235823717_1_alg».proof.Proof.Gen.KernelIdeal.Launch
import proofs.«164958_j45200235823717_1_alg».proof.Proof.Gen.KernelIdeal.Points
import proofs.«164958_j45200235823717_1_alg».proof.Proof.Gen.KernelIdeal.Frame
import proofs.«164958_j45200235823717_1_alg».proof.Proof.Gen.ReferenceIdeal
import proofs.«164958_j45200235823717_1_alg».proof.Proof.Gen.Pre_finite_inputs
import proofs.«164958_j45200235823717_1_alg».proof.Proof.KernelValue
import proofs.«164958_j45200235823717_1_alg».proof.Proof.RefRun
import proofs.«164958_j45200235823717_1_alg».proof.Proof.HostNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Staged.run m ρ)

theorem preserves : Cert.preserves_Kernel_KernelIdeal := trivial

/-- Both programs end with the result array at the network of the argument arrays: the kernel's by its tiles, the
    reference's by its whole-array operations; the arguments agree. -/
theorem algebraic : Cert.algebraic_KernelIdeal_ReferenceIdeal := by
  intro m ρ m' ρ' _ hagree
  refine ⟨_, Cert.KernelIdeal.Result.value_run m ρ, ?_⟩
  refine (θ_run Cert.ReferenceIdeal.defs _ _).mono (fun _ h c => ⟨(h c).1.trans ?_, (h c).2⟩)
    (Cert.ReferenceIdeal.Staged.run m' ρ')
  obtain ⟨a0, a1, a2, a3, a4, a5, a6, a7⟩ := hagree c
  rw [a0, a1, a2, a3, a4, a5, a6, a7]
  exact Cert.ReferenceIdeal.Maps.netH_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
